-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v27_1)) (v3 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v27_1) = v2 c
          ∧ r.2.mem ((c.tc : Thread Cert.KernelIdeal.nD Cert.KernelIdeal.τ).loc Cert.KernelIdeal.main_v27_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : IVec S1000000 32) (main_arg3 : IVec S1000000 32) (main_arg4 : FVec F S1000000 .f32) (main_arg5 : IVec S1000000 32) (main_arg6 : IVec S1000000 32) (main_arg7 : FVec F S1000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg7
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S1000000 : Shape := ⟨1, ![1000000]⟩
abbrev S150000x64 : Shape := ⟨2, ![150000, 64]⟩
abbrev S1000000x1 : Shape := ⟨2, ![1000000, 1]⟩
abbrev S_ : Shape := ⟨0, ![]⟩
abbrev S1000000x64 : Shape := ⟨2, ![1000000, 64]⟩
abbrev S150000x4x64 : Shape := ⟨3, ![150000, 4, 64]⟩
abbrev S3000x64 : Shape := ⟨2, ![3000, 64]⟩
abbrev S3000x4x64 : Shape := ⟨3, ![3000, 4, 64]⟩
abbrev S3000x1x64 : Shape := ⟨3, ![3000, 1, 64]⟩
abbrev S3000x3x64 : Shape := ⟨3, ![3000, 3, 64]⟩

abbrev nBuf : Space → Nat
  | .hbm => 46
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S150000x64, .f32⟩
  | .hbm, ⟨9, _⟩ => ⟨S1000000x1, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S_, .f32⟩
  | .hbm, ⟨22, _⟩ => ⟨S150000x64, .f32⟩
  | .hbm, ⟨23, _⟩ => ⟨S1000000x1, .i32⟩
  | .hbm, ⟨24, _⟩ => ⟨S150000x64, .f32⟩
  | .hbm, ⟨25, _⟩ => ⟨S1000000x1, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S150000x64, .f32⟩
  | .hbm, ⟨39, _⟩ => ⟨S1000000x1, .i32⟩
  | .hbm, ⟨40, _⟩ => ⟨S150000x64, .f32⟩
  | .hbm, ⟨41, _⟩ => ⟨S150000x64, .f32⟩
  | .hbm, ⟨42, _⟩ => ⟨S150000x4x64, .f32⟩
  | .hbm, ⟨43, _⟩ => ⟨S150000x4x64, .f32⟩
  | .hbm, ⟨44, _⟩ => ⟨S100000x64, .f32⟩
  | .hbm, ⟨45, _⟩ => ⟨S50000x64, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S3000x4x64, .f32⟩
  | .local _ .vmem, ⟨9, _⟩ => ⟨S3000x4x64, .f32⟩
  | .local _ .vmem, ⟨10, _⟩ => ⟨S3000x4x64, .f32⟩
  | .local _ .vmem, ⟨11, _⟩ => ⟨S3000x4x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3000x4x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3000x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  shapeCasts_S3000x64_S3000x1x64 : S3000x64.ShapeCasts S3000x1x64
  shapeCasts_S3000x1x64_S3000x1x64 : S3000x1x64.ShapeCasts S3000x1x64
  broadcasts_S3000x1x64_S3000x3x64 : S3000x1x64.Broadcasts S3000x3x64
  concatenates_S3000x1x64_S3000x3x64_S3000x4x64_d1 : Shape.Concatenates [S3000x1x64, S3000x3x64] S3000x4x64 1
  inb_S3000x4x64_S3000x4x64_0_0_0 : ∀ a, (![0, 0, 0] : Fin 3 → Nat) a + S3000x4x64.size a ≤ S3000x4x64.size a
  h_S3000x4x64 : 0 < S3000x4x64.numel
  slices_S150000x64_S100000x64_0_0 : S150000x64.Slices ![0, 0] S100000x64
  slices_S150000x64_S50000x64_100000_0 : S150000x64.Slices ![100000, 0] S50000x64
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S150000x64.size a
  hwx0_2 : ∀ i : grid0.Coords, EltTy.bits .f32 = 32 ∨ (Rect.block (s := S150000x64) S3000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x64.size a ≤ S150000x64.size a
  hwx0_3 : ∀ i : grid0.Coords, EltTy.bits .f32 = 32 ∨ (Rect.block (s := S150000x64) S3000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x4x64.size a ≤ S150000x4x64.size a
  hwx0_4 : ∀ i : grid0.Coords, EltTy.bits .f32 = 32 ∨ (Rect.block (s := S150000x4x64) S3000x4x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x4x64.size a ≤ S150000x4x64.size a
  hwx0_5 : ∀ i : grid0.Coords, EltTy.bits .f32 = 32 ∨ (Rect.block (s := S150000x4x64) S3000x4x64.size (cc0_transform_5 i) (hinb0_5 i)).WholeWords (EltTy.packing .f32)

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S3000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S3000x4x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27_2) S3000x4x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000000 : Shape := ⟨1, ![1000000]⟩
abbrev S150000x64 : Shape := ⟨2, ![150000, 64]⟩
abbrev S1000000x1 : Shape := ⟨2, ![1000000, 1]⟩
abbrev S_ : Shape := ⟨0, ![]⟩
abbrev S1000000x64 : Shape := ⟨2, ![1000000, 64]⟩
abbrev S150000x1x64 : Shape := ⟨3, ![150000, 1, 64]⟩
abbrev S150000x4x64 : Shape := ⟨3, ![150000, 4, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S150000x64, .f32⟩
  | .hbm, ⟨9, _⟩ => ⟨S1000000x1, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S_, .f32⟩
  | .hbm, ⟨22, _⟩ => ⟨S150000x64, .f32⟩
  | .hbm, ⟨23, _⟩ => ⟨S1000000x1, .i32⟩
  | .hbm, ⟨24, _⟩ => ⟨S150000x64, .f32⟩
  | .hbm, ⟨25, _⟩ => ⟨S1000000x1, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S150000x64, .f32⟩
  | .hbm, ⟨39, _⟩ => ⟨S1000000x1, .i32⟩
  | .hbm, ⟨40, _⟩ => ⟨S150000x64, .f32⟩
  | .hbm, ⟨41, _⟩ => ⟨S1000000x1, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x64, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S150000x64, .f32⟩
  | .hbm, ⟨55, _⟩ => ⟨S1000000x1, .i32⟩
  | .hbm, ⟨56, _⟩ => ⟨S150000x64, .f32⟩
  | .hbm, ⟨57, _⟩ => ⟨S1000000x1, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S1000000x64, .f32⟩
  | .hbm, ⟨68, _⟩ => ⟨S1000000x64, .f32⟩
  | .hbm, ⟨69, _⟩ => ⟨S_, .f32⟩
  | .hbm, ⟨70, _⟩ => ⟨S150000x64, .f32⟩
  | .hbm, ⟨71, _⟩ => ⟨S1000000x1, .i32⟩
  | .hbm, ⟨72, _⟩ => ⟨S150000x64, .f32⟩
  | .hbm, ⟨73, _⟩ => ⟨S1000000x1, .f32⟩
  | .hbm, ⟨74, _⟩ => ⟨S_, .i32⟩
  | .hbm, ⟨75, _⟩ => ⟨S1000000, .i32⟩
  | .hbm, ⟨76, _⟩ => ⟨S1000000, .i1⟩
  | .hbm, ⟨77, _⟩ => ⟨S_, .i32⟩
  | .hbm, ⟨78, _⟩ => ⟨S1000000, .i32⟩
  | .hbm, ⟨79, _⟩ => ⟨S1000000, .i32⟩
  | .hbm, ⟨80, _⟩ => ⟨S1000000, .i32⟩
  | .hbm, ⟨81, _⟩ => ⟨S1000000x1, .i32⟩
  | .hbm, ⟨82, _⟩ => ⟨S1000000x64, .f32⟩
  | .hbm, ⟨83, _⟩ => ⟨S1000000x64, .f32⟩
  | .hbm, ⟨84, _⟩ => ⟨S1000000x64, .f32⟩
  | .hbm, ⟨85, _⟩ => ⟨S_, .f32⟩
  | .hbm, ⟨86, _⟩ => ⟨S150000x64, .f32⟩
  | .hbm, ⟨87, _⟩ => ⟨S1000000x1, .i32⟩
  | .hbm, ⟨88, _⟩ => ⟨S150000x64, .f32⟩
  | .hbm, ⟨89, _⟩ => ⟨S1000000x1, .f32⟩
  | .hbm, ⟨90, _⟩ => ⟨S_, .i32⟩
  | .hbm, ⟨91, _⟩ => ⟨S1000000, .i32⟩
  | .hbm, ⟨92, _⟩ => ⟨S1000000, .i1⟩
  | .hbm, ⟨93, _⟩ => ⟨S_, .i32⟩
  | .hbm, ⟨94, _⟩ => ⟨S1000000, .i32⟩
  | .hbm, ⟨95, _⟩ => ⟨S1000000, .i32⟩
  | .hbm, ⟨96, _⟩ => ⟨S1000000, .i32⟩
  | .hbm, ⟨97, _⟩ => ⟨S1000000x1, .i32⟩
  | .hbm, ⟨98, _⟩ => ⟨S1000000x64, .f32⟩
  | .hbm, ⟨99, _⟩ => ⟨S1000000x64, .f32⟩
  | .hbm, ⟨100, _⟩ => ⟨S1000000x64, .f32⟩
  | .hbm, ⟨101, _⟩ => ⟨S_, .f32⟩
  | .hbm, ⟨102, _⟩ => ⟨S150000x64, .f32⟩
  | .hbm, ⟨103, _⟩ => ⟨S1000000x1, .i32⟩
  | .hbm, ⟨104, _⟩ => ⟨S150000x64, .f32⟩
  | .hbm, ⟨105, _⟩ => ⟨S150000x1x64, .f32⟩
  | .hbm, ⟨106, _⟩ => ⟨S150000x1x64, .f32⟩
  | .hbm, ⟨107, _⟩ => ⟨S150000x1x64, .f32⟩
  | .hbm, ⟨108, _⟩ => ⟨S150000x1x64, .f32⟩
  | .hbm, ⟨109, _⟩ => ⟨S150000x4x64, .f32⟩
  | .hbm, ⟨110, _⟩ => ⟨S_, .f32⟩
  | .hbm, ⟨111, _⟩ => ⟨S150000x64, .f32⟩
  | .hbm, ⟨112, _⟩ => ⟨S_, .f32⟩
  | .hbm, ⟨113, _⟩ => ⟨S150000x64, .f32⟩
  | .hbm, ⟨114, _⟩ => ⟨S150000x64, .f32⟩
  | .hbm, ⟨115, _⟩ => ⟨S100000x64, .f32⟩
  | .hbm, ⟨116, _⟩ => ⟨S50000x64, .f32⟩
  | .hbm, ⟨117, _⟩ => ⟨S150000x1x64, .f32⟩
  | .hbm, ⟨118, _⟩ => ⟨S150000x1x64, .f32⟩
  | .hbm, ⟨119, _⟩ => ⟨S150000x1x64, .f32⟩
  | .hbm, ⟨120, _⟩ => ⟨S150000x1x64, .f32⟩
  | .hbm, ⟨121, _⟩ => ⟨S150000x4x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  bcast_S150000x64_S150000x1x64_0_2 : S150000x64.BroadcastsInDim S150000x1x64 (![0, 2] : Fin 2 → Fin S150000x1x64.rank)
  concatenates_S150000x1x64_S150000x1x64_S150000x1x64_S150000x1x64_S150000x4x64_d1 : Shape.Concatenates [S150000x1x64, S150000x1x64, S150000x1x64, S150000x1x64] S150000x4x64 1
  reducesTo_S150000x4x64_S150000x64_d1 : S150000x4x64.ReducesTo [1] S150000x64
  h_S_ : 0 < S_.numel
  slices_S150000x64_S100000x64_0_0 : S150000x64.Slices ![0, 0] S100000x64
  slices_S150000x64_S50000x64_100000_0 : S150000x64.Slices ![100000, 0] S50000x64
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

class Facts : Prop extends Facts₀ where

variable [Facts]
-- ==== Proof.PoolSpec.lean ====
/-
  The specification of the pooling stage, over literal shapes and index by index.

  Write `e` for the table of all node embeddings ([150000, 64]: the user rows followed by the item rows) and `a` for
  one sparse product of an adjacency with `e` (same shape). The stage produces

    * the layer mean      `mean e a (n, d) = (e (n, d) + 3 · a (n, d)) · ¼`, and
    * the layer stack     `stack e a (n, k, d) = e (n, d)` for `k = 0`, `a (n, d)` for `k = 1, 2, 3`

  ([150000, 4, 64]: the embeddings followed by three copies of the propagated ones, since every propagation layer
  starts from the same `e`).

  The mean of the four layers is `(0 + (e + a + a + a)) / 4` when summed layer by layer and divided; on the extended
  reals this is the same number as `(e + 3 · a) · ¼`: `3 · a = a + a + a` holds for every extended real (both sides are
  `±∞` together), addition is associative, and dividing by the real `4` is multiplying by the real `¼`. No finiteness
  of the entries is used.
-/
import Idealize.ShloMosaic.PureOps.Ideal
import Idealize.ShloMosaic.PureOps.Ideal.Laws
import Idealize.ShloMosaic.Lib.ValueIdx
import Idealize.ShloMosaic.Lib.Pipeline.Value

noncomputable section

namespace Cert.Pool

open Idealize.ShloMosaic Idealize.ShloMosaic.ValueIdx

/-- The shape of a table with one row of 64 features per node. -/
abbrev SN : Shape := ⟨2, ![150000, 64]⟩
/-- The shape of the stack of four layers of such a table. -/
abbrev SN4 : Shape := ⟨3, ![150000, 4, 64]⟩

section Spec
variable {F : FTy → Type} [FloatOps F]

/-- The layer mean, entry by entry: `(e + 3 · a) · ¼`, the literals `3` and `¼` as their binary32 words. -/
def mean (e a : SN.Idx → Elt F .f32) : SN.Idx → Elt F .f32 := fun i =>
  FloatOps.mulf (FloatOps.addf (e i) (FloatOps.mulf (FloatOps.ofBits .f32 0x40400000#32) (a i)))
    (FloatOps.ofBits .f32 0x3E800000#32)

/-- The layer stack, entry by entry: layer 0 is `e`, layers 1 to 3 are `a`. -/
def stack {α : Type} (e a : SN.Idx → α) : SN4.Idx → α := fun i =>
  if (i 1).val = 0 then e (ix2 (i 0) (i 2)) else a (ix2 (i 0) (i 2))

end Spec

/-! ## The three literals -/

/-- The word `0x40400000` is the real number 3. -/
theorem ofBits_three : Ideal.ofBits .f32 0x40400000#32 = ((3 : ℝ) : EReal) := by
  simp [Ideal.ofBits, Ideal.ieee, -EReal.coe_mul]; norm_num

/-- The word `0x3E800000` is the real number ¼. -/
theorem ofBits_quarter : Ideal.ofBits .f32 0x3E800000#32 = ((1 / 4 : ℝ) : EReal) := by
  simp [Ideal.ofBits, Ideal.ieee, -EReal.coe_mul]; norm_num

/-- The word `0x40800000` is the real number 4. -/
theorem ofBits_four : Ideal.ofBits .f32 0x40800000#32 = ((4 : ℝ) : EReal) := by
  simp [Ideal.ofBits, Ideal.ieee, -EReal.coe_mul]; norm_num

/-! ## The law joining the two spellings of the mean -/

/-- Three times an extended real is it added to itself twice: at `±∞` both sides are that infinity. -/
theorem three_mul_eq (a : EReal) : ((3 : ℝ) : EReal) * a = a + a + a := by
  induction a using EReal.rec with
  | bot => rw [EReal.coe_mul_bot_of_pos (by norm_num)]; simp
  | coe x => norm_cast; ring
  | top => rw [EReal.coe_mul_top_of_pos (by norm_num)]; simp

/-- `(e + 3 · a) · ¼ = (0 + (e + a + a + a)) / 4` for all extended reals `e`, `a`. -/
theorem mean_law (e a : EReal) :
    (e + Ideal.ofBits .f32 0x40400000#32 * a) * Ideal.ofBits .f32 0x3E800000#32
      = Ideal.div (Ideal.ofBits .f32 0x00000000#32 + (e + a + a + a)) (Ideal.ofBits .f32 0x40800000#32) := by
  rw [ofBits_three, ofBits_quarter, ofBits_four, Ideal.ofBits_zero_f32, zero_add,
    Ideal.div_coe (by norm_num : (4 : ℝ) ≠ 0), three_mul_eq]
  simp only [add_assoc]

end Cert.Pool

end
-- ==== Proof.LibLayerStack.lean ====
/-
  Reading a stack of layers at an index, for any extents `N` (rows), `D` (features).

  A table `[N, D]` becomes one layer `[N, 1, D]` by inserting a unit middle axis; a layer is repeated `K` times along
  that axis by a broadcast; layers are stacked by concatenating along it. Each lemma reads one of these operations
  at `(n, k, d)`:

    * `shapeCast_layer_apply`    — the inserted unit axis: `(n, 0, d) ↦ x (n, d)`;
    * `broadcastTo_layers_apply` — the repetition: `(n, k, d) ↦ x (n, 0, d)`;
    * `concat_head_apply`, `concat_tail_apply` — one layer followed by `K` layers: layer 0 is the first piece, layer
      `k + 1` is layer `k` of the second;
    * `concat4_apply`            — four single layers: layer `k` is piece `k`.
-/
import Idealize.ShloMosaic.Lib.ValueIdx
import Idealize.ShloMosaic.Lib.Pipeline.Value

namespace Cert.LayerStack

open Idealize.ShloMosaic Idealize.ShloMosaic.ValueIdx

variable {α : Type} {N D : Nat}

/-- A table viewed as a single layer: the entry at `(n, 0, d)` is the table's at `(n, d)` (same row-major position). -/
theorem shapeCast_layer_apply (x : (⟨2, ![N, D]⟩ : Shape).Idx → α)
    (h : (⟨2, ![N, D]⟩ : Shape).ShapeCasts ⟨3, ![N, 1, D]⟩) (n : Fin N) (z : Fin 1) (d : Fin D) :
    shapeCast ⟨3, ![N, 1, D]⟩ x h (ix3 n z d) = x (ix2 n d) := by
  refine shapeCast_apply x h _ _ ?_
  rw [Shape.rowMajor_val_two, Shape.rowMajor_val_three]
  show n.val * D + d.val = (n.val * 1 + z.val) * D + d.val
  have hz : z.val = 0 := by omega
  rw [hz, Nat.mul_one, Nat.add_zero]

/-- A layer repeated along the middle axis: every copy `k` reads the one layer. -/
theorem broadcastTo_layers_apply {K : Nat} (x : (⟨3, ![N, 1, D]⟩ : Shape).Idx → α)
    (h : (⟨3, ![N, 1, D]⟩ : Shape).Broadcasts ⟨3, ![N, K, D]⟩) (n : Fin N) (k : Fin K) (d : Fin D) :
    broadcastTo ⟨3, ![N, K, D]⟩ x h (ix3 n k d) = x (ix3 n 0 d) := by
  refine broadcastTo_apply x h _ _ fun a => ?_
  match a with
  | ⟨0, _⟩ =>
    show n.val = if N = 1 then 0 else n.val
    split
    · omega
    · rfl
  | ⟨1, _⟩ =>
    show (0 : Nat) = if (1 : Nat) = 1 then 0 else k.val
    rw [if_pos rfl]
  | ⟨2, _⟩ =>
    show d.val = if D = 1 then 0 else d.val
    split
    · omega
    · rfl

/-- One layer followed by `K` layers, read at layer 0: the first piece. -/
theorem concat_head_apply {K : Nat} (x₁ : (⟨3, ![N, 1, D]⟩ : Shape).Idx → α) (x₂ : (⟨3, ![N, K, D]⟩ : Shape).Idx → α)
    (h : Shape.Concatenates [⟨3, ![N, 1, D]⟩, ⟨3, ![N, K, D]⟩] ⟨3, ![N, K + 1, D]⟩ 1)
    (n : Fin N) (k : Fin (K + 1)) (hk : k.val = 0) (d : Fin D) :
    concatenate ⟨3, ![N, K + 1, D]⟩ 1 [⟨⟨3, ![N, 1, D]⟩, x₁⟩, ⟨⟨3, ![N, K, D]⟩, x₂⟩] h (ix3 n k d) = x₁ (ix3 n 0 d) := by
  refine concatenate_pair_apply_left (t := ⟨3, ![N, K + 1, D]⟩) (1 : Fin 3) x₁ x₂ h (ix3 n k d) rfl (ix3 n 0 d) fun b => ?_
  match b with
  | ⟨0, _⟩ => rfl
  | ⟨1, _⟩ => exact hk.symm
  | ⟨2, _⟩ => rfl

/-- One layer followed by `K` layers, read at layer `k + 1`: layer `k` of the second piece. -/
theorem concat_tail_apply {K : Nat} (x₁ : (⟨3, ![N, 1, D]⟩ : Shape).Idx → α) (x₂ : (⟨3, ![N, K, D]⟩ : Shape).Idx → α)
    (h : Shape.Concatenates [⟨3, ![N, 1, D]⟩, ⟨3, ![N, K, D]⟩] ⟨3, ![N, K + 1, D]⟩ 1)
    (n : Fin N) (k : Fin (K + 1)) (k' : Fin K) (hk : k'.val + 1 = k.val) (d : Fin D) :
    concatenate ⟨3, ![N, K + 1, D]⟩ 1 [⟨⟨3, ![N, 1, D]⟩, x₁⟩, ⟨⟨3, ![N, K, D]⟩, x₂⟩] h (ix3 n k d) = x₂ (ix3 n k' d) := by
  refine concatenate_pair_apply_right (t := ⟨3, ![N, K + 1, D]⟩) (1 : Fin 3) x₁ x₂ h (ix3 n k d) rfl rfl (ix3 n k' d)
    (fun b hb => ?_) ?_
  · match b with
    | ⟨0, _⟩ => rfl
    | ⟨1, _⟩ => exact absurd rfl hb
    | ⟨2, _⟩ => rfl
  · exact hk

/-- Four single layers stacked, read at layer `k`: piece `k`. -/
theorem concat4_apply (y0 y1 y2 y3 : (⟨3, ![N, 1, D]⟩ : Shape).Idx → α)
    (h : Shape.Concatenates [⟨3, ![N, 1, D]⟩, ⟨3, ![N, 1, D]⟩, ⟨3, ![N, 1, D]⟩, ⟨3, ![N, 1, D]⟩] ⟨3, ![N, 4, D]⟩ 1)
    (n : Fin N) (k : Fin 4) (d : Fin D) :
    concatenate ⟨3, ![N, 4, D]⟩ 1 [⟨⟨3, ![N, 1, D]⟩, y0⟩, ⟨⟨3, ![N, 1, D]⟩, y1⟩, ⟨⟨3, ![N, 1, D]⟩, y2⟩, ⟨⟨3, ![N, 1, D]⟩, y3⟩] h (ix3 n k d)
      = (match k with | ⟨0, _⟩ => y0 | ⟨1, _⟩ => y1 | ⟨2, _⟩ => y2 | ⟨_ + 3, _⟩ => y3) (ix3 n 0 d) := by
  have hi : ∀ b : Fin 3, b.cast (rfl : (3 : Nat) = 3) ≠ (1 : Fin 3) →
      ((ix3 n (0 : Fin 1) d : (⟨3, ![N, 1, D]⟩ : Shape).Idx) b).val = ((ix3 n k d : (⟨3, ![N, 4, D]⟩ : Shape).Idx) (b.cast rfl)).val := by
    intro b hb
    match b with
    | ⟨0, _⟩ => rfl
    | ⟨1, _⟩ => exact absurd rfl hb
    | ⟨2, _⟩ => rfl
  match k with
  | ⟨0, _⟩ =>
    exact concatenate_apply_piece (t := ⟨3, ![N, 4, D]⟩) (1 : Fin 3) [⟨⟨3, ![N, 1, D]⟩, y0⟩, ⟨⟨3, ![N, 1, D]⟩, y1⟩, ⟨⟨3, ![N, 1, D]⟩, y2⟩, ⟨⟨3, ![N, 1, D]⟩, y3⟩] h _ 0 (by simp) ⟨3, ![N, 1, D]⟩ y0 rfl rfl 0 rfl (ix3 n 0 d) hi rfl
  | ⟨1, _⟩ =>
    exact concatenate_apply_piece (t := ⟨3, ![N, 4, D]⟩) (1 : Fin 3) [⟨⟨3, ![N, 1, D]⟩, y0⟩, ⟨⟨3, ![N, 1, D]⟩, y1⟩, ⟨⟨3, ![N, 1, D]⟩, y2⟩, ⟨⟨3, ![N, 1, D]⟩, y3⟩] h _ 1 (by simp) ⟨3, ![N, 1, D]⟩ y1 rfl rfl 1 rfl (ix3 n 0 d) hi rfl
  | ⟨2, _⟩ =>
    exact concatenate_apply_piece (t := ⟨3, ![N, 4, D]⟩) (1 : Fin 3) [⟨⟨3, ![N, 1, D]⟩, y0⟩, ⟨⟨3, ![N, 1, D]⟩, y1⟩, ⟨⟨3, ![N, 1, D]⟩, y2⟩, ⟨⟨3, ![N, 1, D]⟩, y3⟩] h _ 2 (by simp) ⟨3, ![N, 1, D]⟩ y2 rfl rfl 2 rfl (ix3 n 0 d) hi rfl
  | ⟨3, _⟩ =>
    exact concatenate_apply_piece (t := ⟨3, ![N, 4, D]⟩) (1 : Fin 3) [⟨⟨3, ![N, 1, D]⟩, y0⟩, ⟨⟨3, ![N, 1, D]⟩, y1⟩, ⟨⟨3, ![N, 1, D]⟩, y2⟩, ⟨⟨3, ![N, 1, D]⟩, y3⟩] h _ 3 (by simp) ⟨3, ![N, 1, D]⟩ y3 rfl rfl 3 rfl (ix3 n 0 d) hi rfl

end Cert.LayerStack
-- ==== Proof.PoolBlocks.lean ====
/-
  What the idealized kernel's pooling stage leaves in its three result arrays, as whole-array functions.

  The stage runs over 50 grid points; point `t` reads rows `3000 t … 3000 t + 2999` of the embedding table `e` and of the
  two sparse products `a` (adjacency) and `p` (path adjacency), and writes the same rows of the mean and of the two
  stacks. Every index map is "block `t` on the row axis, block 0 on the others", so an entry of a block sits in the
  array at row `3000 t + r`, and the 50 blocks tile the 150000 rows: row `n` is in block `n / 3000`.

  Per point, the body computes `(x₀ + 3 · x₁) · ¼` entrywise for the mean, and for a stack lays `x₀` as layer 0 in
  front of three copies of `x₁` (a unit middle axis inserted, repeated three times, concatenated). Read at the array
  index under a block entry these are `Pool.mean e a` and `Pool.stack e a` (resp. `Pool.stack e p`) there, so each
  result array is that function of the arrays the stage was launched on.
-/
import proofs.«109639_j7095285973816_2_alg».proof.Proof.Gen.KernelIdeal.Frame
import proofs.«109639_j7095285973816_2_alg».proof.Proof.PoolSpec
import proofs.«109639_j7095285973816_2_alg».proof.Proof.LibLayerStack
import Idealize.ShloMosaic.Lib.Pipeline.Value
import Idealize.ShloMosaic.Lib.ValueIdx

set_option maxRecDepth 16384

noncomputable section

namespace Cert.KernelIdeal.PoolValue

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## The body's arithmetic at an entry of a block -/

/-- The mean's payload, entry by entry: `(x₀ + 3 · x₁) · ¼` (the casts to the same shape are the identity). -/
theorem pay_mean (x0 x1 : Vec F S3000x64 .f32) (j : S3000x64.Idx) :
    k0_pay3 x0 x1 j = FloatOps.mulf (FloatOps.addf (x0 j) (FloatOps.mulf (FloatOps.ofBits .f32 0x40400000#32) (x1 j)))
      (FloatOps.ofBits .f32 0x3E800000#32) := by
  unfold k0_pay3 k0_pay1 k0_pay2
  simp only [shapeCast_self]
  rfl

/-- The first stack's payload at `(r, k, d)`: layer 0 is `x₀ (r, d)`, layers 1 to 3 are `x₁ (r, d)`. -/
theorem pay_stack (x0 x1 : Vec F S3000x64 .f32) (r : Fin 3000) (k : Fin 4) (d : Fin 64) :
    k0_pay4 x0 x1 (ix3 r k d) = if k.val = 0 then x0 (ix2 r d) else x1 (ix2 r d) := by
  unfold k0_pay4 k0_pay1 k0_pay2
  simp only [shapeCast_self]
  by_cases hk : k.val = 0
  · rw [if_pos hk]
    refine (Cert.LayerStack.concat_head_apply (N := 3000) (D := 64) (K := 3) _ _ _ r k hk d).trans ?_
    exact Cert.LayerStack.shapeCast_layer_apply (N := 3000) (D := 64) x0 _ r 0 d
  · rw [if_neg hk]
    have hk4 : k.val < 4 := k.isLt
    refine (Cert.LayerStack.concat_tail_apply (N := 3000) (D := 64) (K := 3) _ _ _ r k ⟨k.val - 1, by omega⟩
      (by show k.val - 1 + 1 = k.val; omega) d).trans ?_
    refine (Cert.LayerStack.broadcastTo_layers_apply (N := 3000) (D := 64) (K := 3) _ _ r _ d).trans ?_
    exact Cert.LayerStack.shapeCast_layer_apply (N := 3000) (D := 64) x1 _ r 0 d

/-- The second stack's payload at `(r, k, d)`: the same with the path product's block. -/
theorem pay_stack' (x0 x2 : Vec F S3000x64 .f32) (r : Fin 3000) (k : Fin 4) (d : Fin 64) :
    k0_pay5 x0 x2 (ix3 r k d) = if k.val = 0 then x0 (ix2 r d) else x2 (ix2 r d) := by
  unfold k0_pay5 k0_pay1
  simp only [shapeCast_self]
  by_cases hk : k.val = 0
  · rw [if_pos hk]
    refine (Cert.LayerStack.concat_head_apply (N := 3000) (D := 64) (K := 3) _ _ _ r k hk d).trans ?_
    exact Cert.LayerStack.shapeCast_layer_apply (N := 3000) (D := 64) x0 _ r 0 d
  · rw [if_neg hk]
    have hk4 : k.val < 4 := k.isLt
    refine (Cert.LayerStack.concat_tail_apply (N := 3000) (D := 64) (K := 3) _ _ _ r k ⟨k.val - 1, by omega⟩
      (by show k.val - 1 + 1 = k.val; omega) d).trans ?_
    refine (Cert.LayerStack.broadcastTo_layers_apply (N := 3000) (D := 64) (K := 3) _ _ r _ d).trans ?_
    exact Cert.LayerStack.shapeCast_layer_apply (N := 3000) (D := 64) x2 _ r 0 d

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Every window is at block `t` on the row axis and block 0 on the others, at every point `t` (decided over the 50 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Row `r` of block `t` is row `3000 t + r` of the array. -/
def rowOf (t : Fin cfg0.N) (r : Fin 3000) : Fin 150000 :=
  ⟨t.val * 3000 + r.val, by have ht : t.val < grid0.N := t.isLt; have hr : r.val < 3000 := r.isLt; rw [N_0] at ht; omega⟩

/-! ## Where a block's entry sits in its array -/

theorem emb_0 (t : Fin cfg0.N) (r : Fin 3000) (d : Fin 64) :
    ((cfg0.win 0).blk t).view.emb (ix2 r d) = ix2 (rowOf t r) d := by
  obtain ⟨e00, e01, e10, e11, e20, e21, e30, e31, e40, e41, e42, e50, e51, e52⟩ := idx_facts t
  funext a; apply Fin.ext
  match a with
  | ⟨0, _⟩ => show win0_0.index t (0 : Fin 2) * 3000 + 1 * r.val = t.val * 3000 + r.val; omega
  | ⟨1, _⟩ => show win0_0.index t (1 : Fin 2) * 64 + 1 * d.val = d.val; omega

theorem emb_1 (t : Fin cfg0.N) (r : Fin 3000) (d : Fin 64) :
    ((cfg0.win 1).blk t).view.emb (ix2 r d) = ix2 (rowOf t r) d := by
  obtain ⟨e00, e01, e10, e11, e20, e21, e30, e31, e40, e41, e42, e50, e51, e52⟩ := idx_facts t
  funext a; apply Fin.ext
  match a with
  | ⟨0, _⟩ => show win0_1.index t (0 : Fin 2) * 3000 + 1 * r.val = t.val * 3000 + r.val; omega
  | ⟨1, _⟩ => show win0_1.index t (1 : Fin 2) * 64 + 1 * d.val = d.val; omega

theorem emb_2 (t : Fin cfg0.N) (r : Fin 3000) (d : Fin 64) :
    ((cfg0.win 2).blk t).view.emb (ix2 r d) = ix2 (rowOf t r) d := by
  obtain ⟨e00, e01, e10, e11, e20, e21, e30, e31, e40, e41, e42, e50, e51, e52⟩ := idx_facts t
  funext a; apply Fin.ext
  match a with
  | ⟨0, _⟩ => show win0_2.index t (0 : Fin 2) * 3000 + 1 * r.val = t.val * 3000 + r.val; omega
  | ⟨1, _⟩ => show win0_2.index t (1 : Fin 2) * 64 + 1 * d.val = d.val; omega

theorem emb_3 (t : Fin cfg0.N) (r : Fin 3000) (d : Fin 64) :
    ((cfg0.win 3).blk t).view.emb (ix2 r d) = ix2 (rowOf t r) d := by
  obtain ⟨e00, e01, e10, e11, e20, e21, e30, e31, e40, e41, e42, e50, e51, e52⟩ := idx_facts t
  funext a; apply Fin.ext
  match a with
  | ⟨0, _⟩ => show win0_3.index t (0 : Fin 2) * 3000 + 1 * r.val = t.val * 3000 + r.val; omega
  | ⟨1, _⟩ => show win0_3.index t (1 : Fin 2) * 64 + 1 * d.val = d.val; omega

theorem emb_4 (t : Fin cfg0.N) (r : Fin 3000) (k : Fin 4) (d : Fin 64) :
    ((cfg0.win 4).blk t).view.emb (ix3 r k d) = ix3 (rowOf t r) k d := by
  obtain ⟨e00, e01, e10, e11, e20, e21, e30, e31, e40, e41, e42, e50, e51, e52⟩ := idx_facts t
  funext a; apply Fin.ext
  match a with
  | ⟨0, _⟩ => show win0_4.index t (0 : Fin 3) * 3000 + 1 * r.val = t.val * 3000 + r.val; omega
  | ⟨1, _⟩ => show win0_4.index t (1 : Fin 3) * 4 + 1 * k.val = k.val; omega
  | ⟨2, _⟩ => show win0_4.index t (2 : Fin 3) * 64 + 1 * d.val = d.val; omega

theorem emb_5 (t : Fin cfg0.N) (r : Fin 3000) (k : Fin 4) (d : Fin 64) :
    ((cfg0.win 5).blk t).view.emb (ix3 r k d) = ix3 (rowOf t r) k d := by
  obtain ⟨e00, e01, e10, e11, e20, e21, e30, e31, e40, e41, e42, e50, e51, e52⟩ := idx_facts t
  funext a; apply Fin.ext
  match a with
  | ⟨0, _⟩ => show win0_5.index t (0 : Fin 3) * 3000 + 1 * r.val = t.val * 3000 + r.val; omega
  | ⟨1, _⟩ => show win0_5.index t (1 : Fin 3) * 4 + 1 * k.val = k.val; omega
  | ⟨2, _⟩ => show win0_5.index t (2 : Fin 3) * 64 + 1 * d.val = d.val; omega

variable (m : (ℓ : Loc nD τ sig) → Buf (Elt F) ℓ) (ρ : Dev nD → PrngReg)

/-! ## What a point writes back -/

/-- Point `t` writes back block `t` of the mean of the arrays the stage was launched on. -/
theorem flushed_mean (c : Dev nD) (t : Fin cfg0.N) :
    (dats m 0 c).flushed 3 t = ((cfg0.win 3).blk t).view.read (Elt F) (Cert.Pool.mean (V m c main_v0) (V m c main_v13)) := by
  show (cfg0.win 3).cut (grid0.coords t) ((dats m 0 c).after 3 t) = _
  rw [after0_3]
  unfold out0_3
  rw [View.canon_unit_zero hz2]
  simp only [View.ld_unit_zero (S := S3000x64) hz2]
  funext j
  obtain ⟨r, d, rfl⟩ : ∃ (r : Fin 3000) (d : Fin 64), j = ix2 r d := ⟨j 0, j 1, eq_ix2 (n0 := 3000) (n1 := 64) j⟩
  refine (pay_mean (iblk m c 0 t) (iblk m c 1 t) (ix2 r d)).trans ?_
  show FloatOps.mulf (FloatOps.addf (V m c main_v0 (((cfg0.win 0).blk t).view.emb (ix2 r d)))
      (FloatOps.mulf (FloatOps.ofBits .f32 0x40400000#32) (V m c main_v13 (((cfg0.win 1).blk t).view.emb (ix2 r d)))))
      (FloatOps.ofBits .f32 0x3E800000#32)
    = Cert.Pool.mean (V m c main_v0) (V m c main_v13) (((cfg0.win 3).blk t).view.emb (ix2 r d))
  rw [emb_0, emb_1, emb_3]
  rfl

/-- Point `t` writes back block `t` of the stack of the embeddings and the adjacency product. -/
theorem flushed_stack (c : Dev nD) (t : Fin cfg0.N) :
    (dats m 0 c).flushed 4 t = ((cfg0.win 4).blk t).view.read (Elt F) (Cert.Pool.stack (V m c main_v0) (V m c main_v13)) := by
  show (cfg0.win 4).cut (grid0.coords t) ((dats m 0 c).after 4 t) = _
  rw [after0_4]
  unfold out0_4
  rw [View.canon_unit_zero hz3]
  simp only [View.ld_unit_zero (S := S3000x64) hz2]
  funext j
  obtain ⟨r, k, d, rfl⟩ : ∃ (r : Fin 3000) (k : Fin 4) (d : Fin 64), j = ix3 r k d := ⟨j 0, j 1, j 2, eq_ix3 (n0 := 3000) (n1 := 4) (n2 := 64) j⟩
  refine (pay_stack (iblk m c 0 t) (iblk m c 1 t) r k d).trans ?_
  show (if k.val = 0 then V m c main_v0 (((cfg0.win 0).blk t).view.emb (ix2 r d))
      else V m c main_v13 (((cfg0.win 1).blk t).view.emb (ix2 r d)))
    = Cert.Pool.stack (V m c main_v0) (V m c main_v13) (((cfg0.win 4).blk t).view.emb (ix3 r k d))
  rw [emb_0, emb_1, emb_4]
  rfl

/-- Point `t` writes back block `t` of the stack of the embeddings and the path product. -/
theorem flushed_stack' (c : Dev nD) (t : Fin cfg0.N) :
    (dats m 0 c).flushed 5 t = ((cfg0.win 5).blk t).view.read (Elt F) (Cert.Pool.stack (V m c main_v0) (V m c main_v26)) := by
  show (cfg0.win 5).cut (grid0.coords t) ((dats m 0 c).after 5 t) = _
  rw [after0_5]
  unfold out0_5
  rw [View.canon_unit_zero hz3]
  simp only [View.ld_unit_zero (S := S3000x64) hz2]
  funext j
  obtain ⟨r, k, d, rfl⟩ : ∃ (r : Fin 3000) (k : Fin 4) (d : Fin 64), j = ix3 r k d := ⟨j 0, j 1, j 2, eq_ix3 (n0 := 3000) (n1 := 4) (n2 := 64) j⟩
  refine (pay_stack' (iblk m c 0 t) (iblk m c 2 t) r k d).trans ?_
  show (if k.val = 0 then V m c main_v0 (((cfg0.win 0).blk t).view.emb (ix2 r d))
      else V m c main_v26 (((cfg0.win 2).blk t).view.emb (ix2 r d)))
    = Cert.Pool.stack (V m c main_v0) (V m c main_v26) (((cfg0.win 5).blk t).view.emb (ix3 r k d))
  rw [emb_0, emb_2, emb_5]
  rfl

/-! ## The blocks tile the arrays -/

/-- An index of the array is in point `t`'s block iff each coordinate is in the block's range on its axis. -/
theorem mem_blk_mean (t : Fin cfg0.N) (i : S150000x64.Idx) :
    i ∈ ((cfg0.win 3).blk t).view.set ↔ ∀ a : Fin 2, win0_3.index t a * S3000x64.size a ≤ (i a).val ∧ (i a).val < win0_3.index t a * S3000x64.size a + S3000x64.size a := by
  show i ∈ ((View.whole main_v27_0).slice (win0_3.rect t)).set ↔ _
  rw [View.set_slice_whole, Rect.mem_set_unit]
  exact Iff.rfl

/-- An index of the array is in point `t`'s block iff each coordinate is in the block's range on its axis. -/
theorem mem_blk_stack (t : Fin cfg0.N) (i : S150000x4x64.Idx) :
    i ∈ ((cfg0.win 4).blk t).view.set ↔ ∀ a : Fin 3, win0_4.index t a * S3000x4x64.size a ≤ (i a).val ∧ (i a).val < win0_4.index t a * S3000x4x64.size a + S3000x4x64.size a := by
  show i ∈ ((View.whole main_v27_1).slice (win0_4.rect t)).set ↔ _
  rw [View.set_slice_whole, Rect.mem_set_unit]
  exact Iff.rfl

/-- An index of the array is in point `t`'s block iff each coordinate is in the block's range on its axis. -/
theorem mem_blk_stack' (t : Fin cfg0.N) (i : S150000x4x64.Idx) :
    i ∈ ((cfg0.win 5).blk t).view.set ↔ ∀ a : Fin 3, win0_5.index t a * S3000x4x64.size a ≤ (i a).val ∧ (i a).val < win0_5.index t a * S3000x4x64.size a + S3000x4x64.size a := by
  show i ∈ ((View.whole main_v27_2).slice (win0_5.rect t)).set ↔ _
  rw [View.set_slice_whole, Rect.mem_set_unit]
  exact Iff.rfl

/-- Every index of the array is in the block of the point its row falls in: row `n` in block `n / 3000`. -/
theorem cover_mean (i : S150000x64.Idx) :
    ∃ t : Fin cfg0.N, (cfg0.win 3).flush t = true ∧ i ∈ ((cfg0.win 3).blk t).view.set := by
  have hi0 : (i 0).val < 150000 := (i 0).isLt
  have hi1 : (i 1).val < 64 := (i 1).isLt
  have hN : (i 0).val / 3000 < grid0.N := by rw [N_0]; omega
  refine ⟨⟨(i 0).val / 3000, hN⟩, flush0_3 _, ?_⟩
  rw [mem_blk_mean]
  obtain ⟨e00, e01, e10, e11, e20, e21, e30, e31, e40, e41, e42, e50, e51, e52⟩ := idx_facts ⟨(i 0).val / 3000, hN⟩
  have q0 : win0_3.index ⟨(i 0).val / 3000, hN⟩ (0 : Fin 2) = (i 0).val / 3000 := e30
  intro a
  match a with
  | ⟨0, _⟩ => show win0_3.index ⟨(i 0).val / 3000, hN⟩ (0 : Fin 2) * 3000 ≤ (i 0).val ∧ (i 0).val < win0_3.index ⟨(i 0).val / 3000, hN⟩ (0 : Fin 2) * 3000 + 3000; omega
  | ⟨1, _⟩ => show win0_3.index ⟨(i 0).val / 3000, hN⟩ (1 : Fin 2) * 64 ≤ (i 1).val ∧ (i 1).val < win0_3.index ⟨(i 0).val / 3000, hN⟩ (1 : Fin 2) * 64 + 64; omega

/-- Every index of the array is in the block of the point its row falls in: row `n` in block `n / 3000`. -/
theorem cover_stack (i : S150000x4x64.Idx) :
    ∃ t : Fin cfg0.N, (cfg0.win 4).flush t = true ∧ i ∈ ((cfg0.win 4).blk t).view.set := by
  have hi0 : (i 0).val < 150000 := (i 0).isLt
  have hi1 : (i 1).val < 4 := (i 1).isLt
  have hi2 : (i 2).val < 64 := (i 2).isLt
  have hN : (i 0).val / 3000 < grid0.N := by rw [N_0]; omega
  refine ⟨⟨(i 0).val / 3000, hN⟩, flush0_4 _, ?_⟩
  rw [mem_blk_stack]
  obtain ⟨e00, e01, e10, e11, e20, e21, e30, e31, e40, e41, e42, e50, e51, e52⟩ := idx_facts ⟨(i 0).val / 3000, hN⟩
  have q0 : win0_4.index ⟨(i 0).val / 3000, hN⟩ (0 : Fin 3) = (i 0).val / 3000 := e40
  intro a
  match a with
  | ⟨0, _⟩ => show win0_4.index ⟨(i 0).val / 3000, hN⟩ (0 : Fin 3) * 3000 ≤ (i 0).val ∧ (i 0).val < win0_4.index ⟨(i 0).val / 3000, hN⟩ (0 : Fin 3) * 3000 + 3000; omega
  | ⟨1, _⟩ => show win0_4.index ⟨(i 0).val / 3000, hN⟩ (1 : Fin 3) * 4 ≤ (i 1).val ∧ (i 1).val < win0_4.index ⟨(i 0).val / 3000, hN⟩ (1 : Fin 3) * 4 + 4; omega
  | ⟨2, _⟩ => show win0_4.index ⟨(i 0).val / 3000, hN⟩ (2 : Fin 3) * 64 ≤ (i 2).val ∧ (i 2).val < win0_4.index ⟨(i 0).val / 3000, hN⟩ (2 : Fin 3) * 64 + 64; omega

/-- Every index of the array is in the block of the point its row falls in: row `n` in block `n / 3000`. -/
theorem cover_stack' (i : S150000x4x64.Idx) :
    ∃ t : Fin cfg0.N, (cfg0.win 5).flush t = true ∧ i ∈ ((cfg0.win 5).blk t).view.set := by
  have hi0 : (i 0).val < 150000 := (i 0).isLt
  have hi1 : (i 1).val < 4 := (i 1).isLt
  have hi2 : (i 2).val < 64 := (i 2).isLt
  have hN : (i 0).val / 3000 < grid0.N := by rw [N_0]; omega
  refine ⟨⟨(i 0).val / 3000, hN⟩, flush0_5 _, ?_⟩
  rw [mem_blk_stack']
  obtain ⟨e00, e01, e10, e11, e20, e21, e30, e31, e40, e41, e42, e50, e51, e52⟩ := idx_facts ⟨(i 0).val / 3000, hN⟩
  have q0 : win0_5.index ⟨(i 0).val / 3000, hN⟩ (0 : Fin 3) = (i 0).val / 3000 := e50
  intro a
  match a with
  | ⟨0, _⟩ => show win0_5.index ⟨(i 0).val / 3000, hN⟩ (0 : Fin 3) * 3000 ≤ (i 0).val ∧ (i 0).val < win0_5.index ⟨(i 0).val / 3000, hN⟩ (0 : Fin 3) * 3000 + 3000; omega
  | ⟨1, _⟩ => show win0_5.index ⟨(i 0).val / 3000, hN⟩ (1 : Fin 3) * 4 ≤ (i 1).val ∧ (i 1).val < win0_5.index ⟨(i 0).val / 3000, hN⟩ (1 : Fin 3) * 4 + 4; omega
  | ⟨2, _⟩ => show win0_5.index ⟨(i 0).val / 3000, hN⟩ (2 : Fin 3) * 64 ≤ (i 2).val ∧ (i 2).val < win0_5.index ⟨(i 0).val / 3000, hN⟩ (2 : Fin 3) * 64 + 64; omega

/-! ## The arrays after the stage -/

/-- The mean array after the stage is `Pool.mean` of the arrays it was launched on. -/
theorem final_mean (c : Dev nD) : (dats m 0 c).arrAt 3 cfg0.N = Cert.Pool.mean (V m c main_v0) (V m c main_v13) :=
  (dats m 0 c).arrAt_eq_of_cover 3 _ (fun t _ => flushed_mean m c t) cover_mean

/-- The first stack after the stage is `Pool.stack` of the embeddings and the adjacency product. -/
theorem final_stack (c : Dev nD) : (dats m 0 c).arrAt 4 cfg0.N = Cert.Pool.stack (V m c main_v0) (V m c main_v13) :=
  (dats m 0 c).arrAt_eq_of_cover 4 _ (fun t _ => flushed_stack m c t) cover_stack

/-- The second stack after the stage is `Pool.stack` of the embeddings and the path product. -/
theorem final_stack' (c : Dev nD) : (dats m 0 c).arrAt 5 cfg0.N = Cert.Pool.stack (V m c main_v0) (V m c main_v26) :=
  (dats m 0 c).arrAt_eq_of_cover 5 _ (fun t _ => flushed_stack' m c t) cover_stack'

end Cert.KernelIdeal.PoolValue

end
-- ==== Proof.PoolRun.lean ====
/-
  The idealized kernel's run, read: every result as a function of the launch contents.

  Before the pooling stage the host builds the table of all embeddings `ego` (user rows then item rows) and the two
  sparse products `spmm` (gather the table's rows at the column indices, a negative index counted from the end;
  scale by the values; add into the row the row index names). The stage is launched on these three arrays and
  leaves `Pool.mean ego adj`, `Pool.stack ego adj` and `Pool.stack ego path` (PoolBlocks). After it the host cuts the
  mean into the user rows `[0, 100000)` and the item rows `[100000, 150000)`; the stacks are results as they are.
  The sparse product is carried as one function of its arguments and never opened.
-/
import proofs.«109639_j7095285973816_2_alg».proof.Proof.PoolBlocks
import Idealize.ShloMosaic.Lib.StableHlo.Run

set_option maxRecDepth 16384

noncomputable section

namespace Cert.KernelIdeal.PoolValue

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-! ## The arrays the stage is launched on -/

/-- The table of all embeddings: the user rows followed by the item rows. -/
def ego (x0 : (⟨S100000x64, .f32⟩ : BufTy).Contents (Elt F)) (x1 : (⟨S50000x64, .f32⟩ : BufTy).Contents (Elt F)) :
    (⟨S150000x64, .f32⟩ : BufTy).Contents (Elt F) :=
  concatenate S150000x64 0 [⟨S100000x64, x0⟩, ⟨S50000x64, x1⟩] concatenates_S100000x64_S50000x64_S150000x64_d0

/-- A sparse product with the table: row `rows k` receives `vals k` times the table's row `cols k`, summed over `k`. -/
def spmm (x0 : (⟨S100000x64, .f32⟩ : BufTy).Contents (Elt F)) (x1 : (⟨S50000x64, .f32⟩ : BufTy).Contents (Elt F))
    (rows cols : (⟨S1000000, .i32⟩ : BufTy).Contents (Elt F)) (vals : (⟨S1000000, .f32⟩ : BufTy).Contents (Elt F)) :
    (⟨S150000x64, .f32⟩ : BufTy).Contents (Elt F) :=
  Host.scatterAdd scatter_S150000x64_S1000000x1_S1000000x64_1_0_0_1
    (broadcastInDim S150000x64 ![] bcast_S_S150000x64 (constant (F := F) S_ .f32 0x00000000#32))
    (broadcastInDim S1000000x1 ![0] bcast_S1000000_S1000000x1_0 rows)
    (mulf (broadcastInDim S1000000x64 ![0, 1] bcast_S1000000x1_S1000000x64_0_1 (broadcastInDim S1000000x1 ![0] bcast_S1000000_S1000000x1_0 vals))
      (Host.gather gather_S150000x64_S1000000x1_S1000000x64_1_0_n_n_0_1_164 (ego x0 x1)
        (broadcastInDim S1000000x1 ![0] bcast_S1000000_S1000000x1_0
          (select (cmpi .slt cols (broadcastInDim S1000000 ![] bcast_S_S1000000 (constantI S_ 32 0#32)))
            (addi cols (broadcastInDim S1000000 ![] bcast_S_S1000000 (constantI S_ 32 150000#32))) cols))))

variable (m : (ℓ : Loc nD τ sig) → Buf (Elt F) ℓ) (ρ : Dev nD → PrngReg)

/-- The stage finds the embedding table at `ego` of the two embedding arguments. -/
theorem V_ego (c : Dev nD) :
    (V m c main_v0 : S150000x64.Idx → Elt F .f32)
      = ego (m ((c : Thread nD τ).loc main_arg0)) (m ((c : Thread nD τ).loc main_arg1)) := by
  show StableHlo.after hostOps0 (fun b => m (c, b)) (Proc.devRef .tc main_v0) = _
  after_results_simp
  rfl

/-- The stage finds the adjacency product at `spmm` of the adjacency's rows, columns and values. -/
theorem V_adj (c : Dev nD) :
    (V m c main_v13 : S150000x64.Idx → Elt F .f32)
      = spmm (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after hostOps0 (fun b => m (c, b)) (Proc.devRef .tc main_v13) = _
  after_results_simp
  rfl

/-- The stage finds the path product at `spmm` of the path adjacency's rows, columns and values. -/
theorem V_path (c : Dev nD) :
    (V m c main_v26 : S150000x64.Idx → Elt F .f32)
      = spmm (m ((c : Thread nD τ).loc main_arg0)) (m ((c : Thread nD τ).loc main_arg1))
          (m ((c : Thread nD τ).loc main_arg5)) (m ((c : Thread nD τ).loc main_arg6)) (m ((c : Thread nD τ).loc main_arg7)) := by
  show StableHlo.after hostOps0 (fun b => m (c, b)) (Proc.devRef .tc main_v26) = _
  after_results_simp
  rfl

/-! ## The two cuts of the mean after the stage -/

/-- The user rows: the first 100000 rows of the mean array after the stage. -/
theorem tail_user (c : Dev nD) :
    Pipeline.afterTail₀ cfgs (dats m) 0 (V0 m) [hostOps1] c main_v28
      = extractStridedSlice S100000x64 ![0, 0] (Cert.Pool.mean (V m c main_v0) (V m c main_v13)) slices_S150000x64_S100000x64_0_0 := by
  unfold Pipeline.afterTail₀
  show StableHlo.after hostOps1 _ (Proc.devRef .tc main_v28) = _
  after_results
  exact congrArg (fun y => extractStridedSlice S100000x64 ![0, 0] y slices_S150000x64_S100000x64_0_0)
    ((Pipeline.withArrays_arr spec0 launch0.win.arr_inj c (V0 m c) (fun w => (dats m 0 c).arrAt w cfg0.N) 3).trans (final_mean m c))

/-- The item rows: the last 50000 rows of the mean array after the stage. -/
theorem tail_item (c : Dev nD) :
    Pipeline.afterTail₀ cfgs (dats m) 0 (V0 m) [hostOps1] c main_v29
      = extractStridedSlice S50000x64 ![100000, 0] (Cert.Pool.mean (V m c main_v0) (V m c main_v13)) slices_S150000x64_S50000x64_100000_0 := by
  unfold Pipeline.afterTail₀
  show StableHlo.after hostOps1 _ (Proc.devRef .tc main_v29) = _
  after_results
  exact congrArg (fun y => extractStridedSlice S50000x64 ![100000, 0] y slices_S150000x64_S50000x64_100000_0)
    ((Pipeline.withArrays_arr spec0 launch0.win.arr_inj c (V0 m c) (fun w => (dats m 0 c).arrAt w cfg0.N) 3).trans (final_mean m c))

/-! ## The run -/

/-- Every weakly fair execution terminates with the four results at the specification's functions of the launch
    contents, and the arguments unchanged. -/
theorem run : θ_run defs (onTc (τ := τ) (main (F := F))) ⟨m, fun _ => 0, ρ⟩ fun r => ∀ c : Dev nD,
      r.2.mem ((c : Thread nD τ).loc main_v28)
        = extractStridedSlice S100000x64 ![0, 0]
            (Cert.Pool.mean (ego (m ((c : Thread nD τ).loc main_arg0)) (m ((c : Thread nD τ).loc main_arg1)))
              (spmm (m ((c : Thread nD τ).loc main_arg0)) (m ((c : Thread nD τ).loc main_arg1)) (m ((c : Thread nD τ).loc main_arg2)) (m ((c : Thread nD τ).loc main_arg3)) (m ((c : Thread nD τ).loc main_arg4))))
            slices_S150000x64_S100000x64_0_0
      ∧ r.2.mem ((c : Thread nD τ).loc main_v29)
        = extractStridedSlice S50000x64 ![100000, 0]
            (Cert.Pool.mean (ego (m ((c : Thread nD τ).loc main_arg0)) (m ((c : Thread nD τ).loc main_arg1)))
              (spmm (m ((c : Thread nD τ).loc main_arg0)) (m ((c : Thread nD τ).loc main_arg1)) (m ((c : Thread nD τ).loc main_arg2)) (m ((c : Thread nD τ).loc main_arg3)) (m ((c : Thread nD τ).loc main_arg4))))
            slices_S150000x64_S50000x64_100000_0
      ∧ r.2.mem ((c : Thread nD τ).loc main_v27_1)
        = Cert.Pool.stack (ego (m ((c : Thread nD τ).loc main_arg0)) (m ((c : Thread nD τ).loc main_arg1)))
            (spmm (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_v27_2)
        = Cert.Pool.stack (ego (m ((c : Thread nD τ).loc main_arg0)) (m ((c : Thread nD τ).loc main_arg1)))
            (spmm (m ((c : Thread nD τ).loc main_arg0)) (m ((c : Thread nD τ).loc main_arg1)) (m ((c : Thread nD τ).loc main_arg5)) (m ((c : Thread nD τ).loc main_arg6)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨
      (((h c).2 main_v28 (Pipeline.mem_restRefs_of main_v28 (by decide) (by decide))).trans (tail_user m c)).trans
        (by rw [V_ego, V_adj]),
      (((h c).2 main_v29 (Pipeline.mem_restRefs_of main_v29 (by decide) (by decide))).trans (tail_item m c)).trans
        (by rw [V_ego, V_adj]),
      (((h c).1 4).trans (final_stack m c)).trans (by rw [V_ego, V_adj]),
      (((h c).1 5).trans (final_stack' m c)).trans (by rw [V_ego, V_path]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.PoolValue

end
-- ==== Proof.RefRun.lean ====
/-
  The reference's run, read: each of its results as a function of the launch contents.

  The reference is one straight line of 114 host operations: the table of all embeddings `ego`, then — once per
  propagation layer, three times — the sparse product of each of the two adjacencies with that table, then the two
  stacks of four layers, the sum of the first stack's layers from `0` divided by `4`, and its two cuts into user and
  item rows. The line is read in four parts (the first pair of products, the second, the third, the stacking and
  averaging): what a part computes is read off its own operations, from whatever contents the part starts at, and a
  buffer a part does not write passes through it. Chained, every one of the six products is the same function
  `spmmT ego rows cols vals` of the launch contents, so the stacks are `layers4 ego a a a` and `layers4 ego p p p`.
-/
import proofs.«109639_j7095285973816_2_alg».proof.Proof.Gen.ReferenceIdeal
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- @main's 114 operations, in order. -/
abbrev ops : List (HloOp τ sig (Elt F)) :=
  [ binary main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg4 main_v1 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v2 (broadcastInDim S1000000 ![] bcast_S_S1000000 : (⟨S_, .i32⟩ : BufTy).Contents (Elt F) → (⟨S1000000, .i32⟩ : BufTy).Contents (Elt F)),
    binary main_arg3 main_v2 main_v3 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 150000#32),
    unary main_c_0 main_v4 (broadcastInDim S1000000 ![] bcast_S_S1000000 : (⟨S_, .i32⟩ : BufTy).Contents (Elt F) → (⟨S1000000, .i32⟩ : BufTy).Contents (Elt F)),
    binary main_arg3 main_v4 main_v5 (addi : (⟨S1000000, .i32⟩ : BufTy).Contents (Elt F) → (⟨S1000000, .i32⟩ : BufTy).Contents (Elt F) → (⟨S1000000, .i32⟩ : BufTy).Contents (Elt F)),
    ternary main_v3 main_v5 main_arg3 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v6 main_v7 (broadcastInDim S1000000x1 ![0] bcast_S1000000_S1000000x1_0 : (⟨S1000000, .i32⟩ : BufTy).Contents (Elt F) → (⟨S1000000x1, .i32⟩ : BufTy).Contents (Elt F)),
    binary main_v0 main_v7 main_v8 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v1 main_v9 (broadcastInDim S1000000x64 ![0, 1] bcast_S1000000x1_S1000000x64_0_1 : (⟨S1000000x1, .f32⟩ : BufTy).Contents (Elt F) → (⟨S1000000x64, .f32⟩ : BufTy).Contents (Elt F)),
    binary main_v9 main_v8 main_v10 (mulf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg2 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v14 (broadcastInDim S1000000x1 ![0] bcast_S1000000_S1000000x1_0 : (⟨S1000000, .f32⟩ : BufTy).Contents (Elt F) → (⟨S1000000x1, .f32⟩ : BufTy).Contents (Elt F)),
    nullary main_c_1 (constantI S_ 32 0#32),
    unary main_c_1 main_v15 (broadcastInDim S1000000 ![] bcast_S_S1000000 : (⟨S_, .i32⟩ : BufTy).Contents (Elt F) → (⟨S1000000, .i32⟩ : BufTy).Contents (Elt F)),
    binary main_arg6 main_v15 main_v16 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 150000#32),
    unary main_c_2 main_v17 (broadcastInDim S1000000 ![] bcast_S_S1000000 : (⟨S_, .i32⟩ : BufTy).Contents (Elt F) → (⟨S1000000, .i32⟩ : BufTy).Contents (Elt F)),
    binary main_arg6 main_v17 main_v18 (addi : (⟨S1000000, .i32⟩ : BufTy).Contents (Elt F) → (⟨S1000000, .i32⟩ : BufTy).Contents (Elt F) → (⟨S1000000, .i32⟩ : BufTy).Contents (Elt F)),
    ternary main_v16 main_v18 main_arg6 main_v19 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v19 main_v20 (broadcastInDim S1000000x1 ![0] bcast_S1000000_S1000000x1_0 : (⟨S1000000, .i32⟩ : BufTy).Contents (Elt F) → (⟨S1000000x1, .i32⟩ : BufTy).Contents (Elt F)),
    binary main_v0 main_v20 main_v21 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v14 main_v22 (broadcastInDim S1000000x64 ![0, 1] bcast_S1000000x1_S1000000x64_0_1 : (⟨S1000000x1, .f32⟩ : BufTy).Contents (Elt F) → (⟨S1000000x64, .f32⟩ : BufTy).Contents (Elt F)),
    binary main_v22 main_v21 main_v23 (mulf : (⟨S1000000x64, .f32⟩ : BufTy).Contents (Elt F) → (⟨S1000000x64, .f32⟩ : BufTy).Contents (Elt F) → (⟨S1000000x64, .f32⟩ : BufTy).Contents (Elt F)),
    nullary main_cst_3 (constant S_ .f32 0x00000000#32),
    unary main_cst_3 main_v24 (broadcastInDim S150000x64 ![] bcast_S_S150000x64 : (⟨S_, .f32⟩ : BufTy).Contents (Elt F) → (⟨S150000x64, .f32⟩ : BufTy).Contents (Elt F)),
    unary main_arg5 main_v25 (broadcastInDim S1000000x1 ![0] bcast_S1000000_S1000000x1_0 : (⟨S1000000, .i32⟩ : BufTy).Contents (Elt F) → (⟨S1000000x1, .i32⟩ : BufTy).Contents (Elt F)),
    ternary main_v24 main_v25 main_v23 main_v26 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg4 main_v27 (broadcastInDim S1000000x1 ![0] bcast_S1000000_S1000000x1_0 : (⟨S1000000, .f32⟩ : BufTy).Contents (Elt F) → (⟨S1000000x1, .f32⟩ : BufTy).Contents (Elt F)),
    nullary main_c_4 (constantI S_ 32 0#32),
    unary main_c_4 main_v28 (broadcastInDim S1000000 ![] bcast_S_S1000000 : (⟨S_, .i32⟩ : BufTy).Contents (Elt F) → (⟨S1000000, .i32⟩ : BufTy).Contents (Elt F)),
    binary main_arg3 main_v28 main_v29 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 150000#32),
    unary main_c_5 main_v30 (broadcastInDim S1000000 ![] bcast_S_S1000000 : (⟨S_, .i32⟩ : BufTy).Contents (Elt F) → (⟨S1000000, .i32⟩ : BufTy).Contents (Elt F)),
    binary main_arg3 main_v30 main_v31 (addi : (⟨S1000000, .i32⟩ : BufTy).Contents (Elt F) → (⟨S1000000, .i32⟩ : BufTy).Contents (Elt F) → (⟨S1000000, .i32⟩ : BufTy).Contents (Elt F)),
    ternary main_v29 main_v31 main_arg3 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v32 main_v33 (broadcastInDim S1000000x1 ![0] bcast_S1000000_S1000000x1_0 : (⟨S1000000, .i32⟩ : BufTy).Contents (Elt F) → (⟨S1000000x1, .i32⟩ : BufTy).Contents (Elt F)),
    binary main_v0 main_v33 main_v34 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v27 main_v35 (broadcastInDim S1000000x64 ![0, 1] bcast_S1000000x1_S1000000x64_0_1 : (⟨S1000000x1, .f32⟩ : BufTy).Contents (Elt F) → (⟨S1000000x64, .f32⟩ : BufTy).Contents (Elt F)),
    binary main_v35 main_v34 main_v36 (mulf : (⟨S1000000x64, .f32⟩ : BufTy).Contents (Elt F) → (⟨S1000000x64, .f32⟩ : BufTy).Contents (Elt F) → (⟨S1000000x64, .f32⟩ : BufTy).Contents (Elt F)),
    nullary main_cst_6 (constant S_ .f32 0x00000000#32),
    unary main_cst_6 main_v37 (broadcastInDim S150000x64 ![] bcast_S_S150000x64 : (⟨S_, .f32⟩ : BufTy).Contents (Elt F) → (⟨S150000x64, .f32⟩ : BufTy).Contents (Elt F)),
    unary main_arg2 main_v38 (broadcastInDim S1000000x1 ![0] bcast_S1000000_S1000000x1_0 : (⟨S1000000, .i32⟩ : BufTy).Contents (Elt F) → (⟨S1000000x1, .i32⟩ : BufTy).Contents (Elt F)),
    ternary main_v37 main_v38 main_v36 main_v39 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v40 (broadcastInDim S1000000x1 ![0] bcast_S1000000_S1000000x1_0 : (⟨S1000000, .f32⟩ : BufTy).Contents (Elt F) → (⟨S1000000x1, .f32⟩ : BufTy).Contents (Elt F)),
    nullary main_c_7 (constantI S_ 32 0#32),
    unary main_c_7 main_v41 (broadcastInDim S1000000 ![] bcast_S_S1000000 : (⟨S_, .i32⟩ : BufTy).Contents (Elt F) → (⟨S1000000, .i32⟩ : BufTy).Contents (Elt F)),
    binary main_arg6 main_v41 main_v42 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 150000#32),
    unary main_c_8 main_v43 (broadcastInDim S1000000 ![] bcast_S_S1000000 : (⟨S_, .i32⟩ : BufTy).Contents (Elt F) → (⟨S1000000, .i32⟩ : BufTy).Contents (Elt F)),
    binary main_arg6 main_v43 main_v44 (addi : (⟨S1000000, .i32⟩ : BufTy).Contents (Elt F) → (⟨S1000000, .i32⟩ : BufTy).Contents (Elt F) → (⟨S1000000, .i32⟩ : BufTy).Contents (Elt F)),
    ternary main_v42 main_v44 main_arg6 main_v45 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v45 main_v46 (broadcastInDim S1000000x1 ![0] bcast_S1000000_S1000000x1_0 : (⟨S1000000, .i32⟩ : BufTy).Contents (Elt F) → (⟨S1000000x1, .i32⟩ : BufTy).Contents (Elt F)),
    binary main_v0 main_v46 main_v47 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v40 main_v48 (broadcastInDim S1000000x64 ![0, 1] bcast_S1000000x1_S1000000x64_0_1 : (⟨S1000000x1, .f32⟩ : BufTy).Contents (Elt F) → (⟨S1000000x64, .f32⟩ : BufTy).Contents (Elt F)),
    binary main_v48 main_v47 main_v49 (mulf : (⟨S1000000x64, .f32⟩ : BufTy).Contents (Elt F) → (⟨S1000000x64, .f32⟩ : BufTy).Contents (Elt F) → (⟨S1000000x64, .f32⟩ : BufTy).Contents (Elt F)),
    nullary main_cst_9 (constant S_ .f32 0x00000000#32),
    unary main_cst_9 main_v50 (broadcastInDim S150000x64 ![] bcast_S_S150000x64 : (⟨S_, .f32⟩ : BufTy).Contents (Elt F) → (⟨S150000x64, .f32⟩ : BufTy).Contents (Elt F)),
    unary main_arg5 main_v51 (broadcastInDim S1000000x1 ![0] bcast_S1000000_S1000000x1_0 : (⟨S1000000, .i32⟩ : BufTy).Contents (Elt F) → (⟨S1000000x1, .i32⟩ : BufTy).Contents (Elt F)),
    ternary main_v50 main_v51 main_v49 main_v52 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg4 main_v53 (broadcastInDim S1000000x1 ![0] bcast_S1000000_S1000000x1_0 : (⟨S1000000, .f32⟩ : BufTy).Contents (Elt F) → (⟨S1000000x1, .f32⟩ : BufTy).Contents (Elt F)),
    nullary main_c_10 (constantI S_ 32 0#32),
    unary main_c_10 main_v54 (broadcastInDim S1000000 ![] bcast_S_S1000000 : (⟨S_, .i32⟩ : BufTy).Contents (Elt F) → (⟨S1000000, .i32⟩ : BufTy).Contents (Elt F)),
    binary main_arg3 main_v54 main_v55 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 150000#32),
    unary main_c_11 main_v56 (broadcastInDim S1000000 ![] bcast_S_S1000000 : (⟨S_, .i32⟩ : BufTy).Contents (Elt F) → (⟨S1000000, .i32⟩ : BufTy).Contents (Elt F)),
    binary main_arg3 main_v56 main_v57 (addi : (⟨S1000000, .i32⟩ : BufTy).Contents (Elt F) → (⟨S1000000, .i32⟩ : BufTy).Contents (Elt F) → (⟨S1000000, .i32⟩ : BufTy).Contents (Elt F)),
    ternary main_v55 main_v57 main_arg3 main_v58 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v58 main_v59 (broadcastInDim S1000000x1 ![0] bcast_S1000000_S1000000x1_0 : (⟨S1000000, .i32⟩ : BufTy).Contents (Elt F) → (⟨S1000000x1, .i32⟩ : BufTy).Contents (Elt F)),
    binary main_v0 main_v59 main_v60 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v53 main_v61 (broadcastInDim S1000000x64 ![0, 1] bcast_S1000000x1_S1000000x64_0_1 : (⟨S1000000x1, .f32⟩ : BufTy).Contents (Elt F) → (⟨S1000000x64, .f32⟩ : BufTy).Contents (Elt F)),
    binary main_v61 main_v60 main_v62 (mulf : (⟨S1000000x64, .f32⟩ : BufTy).Contents (Elt F) → (⟨S1000000x64, .f32⟩ : BufTy).Contents (Elt F) → (⟨S1000000x64, .f32⟩ : BufTy).Contents (Elt F)),
    nullary main_cst_12 (constant S_ .f32 0x00000000#32),
    unary main_cst_12 main_v63 (broadcastInDim S150000x64 ![] bcast_S_S150000x64 : (⟨S_, .f32⟩ : BufTy).Contents (Elt F) → (⟨S150000x64, .f32⟩ : BufTy).Contents (Elt F)),
    unary main_arg2 main_v64 (broadcastInDim S1000000x1 ![0] bcast_S1000000_S1000000x1_0 : (⟨S1000000, .i32⟩ : BufTy).Contents (Elt F) → (⟨S1000000x1, .i32⟩ : BufTy).Contents (Elt F)),
    ternary main_v63 main_v64 main_v62 main_v65 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v66 (broadcastInDim S1000000x1 ![0] bcast_S1000000_S1000000x1_0 : (⟨S1000000, .f32⟩ : BufTy).Contents (Elt F) → (⟨S1000000x1, .f32⟩ : BufTy).Contents (Elt F)),
    nullary main_c_13 (constantI S_ 32 0#32),
    unary main_c_13 main_v67 (broadcastInDim S1000000 ![] bcast_S_S1000000 : (⟨S_, .i32⟩ : BufTy).Contents (Elt F) → (⟨S1000000, .i32⟩ : BufTy).Contents (Elt F)),
    binary main_arg6 main_v67 main_v68 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 150000#32),
    unary main_c_14 main_v69 (broadcastInDim S1000000 ![] bcast_S_S1000000 : (⟨S_, .i32⟩ : BufTy).Contents (Elt F) → (⟨S1000000, .i32⟩ : BufTy).Contents (Elt F)),
    binary main_arg6 main_v69 main_v70 (addi : (⟨S1000000, .i32⟩ : BufTy).Contents (Elt F) → (⟨S1000000, .i32⟩ : BufTy).Contents (Elt F) → (⟨S1000000, .i32⟩ : BufTy).Contents (Elt F)),
    ternary main_v68 main_v70 main_arg6 main_v71 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v71 main_v72 (broadcastInDim S1000000x1 ![0] bcast_S1000000_S1000000x1_0 : (⟨S1000000, .i32⟩ : BufTy).Contents (Elt F) → (⟨S1000000x1, .i32⟩ : BufTy).Contents (Elt F)),
    binary main_v0 main_v72 main_v73 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v66 main_v74 (broadcastInDim S1000000x64 ![0, 1] bcast_S1000000x1_S1000000x64_0_1 : (⟨S1000000x1, .f32⟩ : BufTy).Contents (Elt F) → (⟨S1000000x64, .f32⟩ : BufTy).Contents (Elt F)),
    binary main_v74 main_v73 main_v75 (mulf : (⟨S1000000x64, .f32⟩ : BufTy).Contents (Elt F) → (⟨S1000000x64, .f32⟩ : BufTy).Contents (Elt F) → (⟨S1000000x64, .f32⟩ : BufTy).Contents (Elt F)),
    nullary main_cst_15 (constant S_ .f32 0x00000000#32),
    unary main_cst_15 main_v76 (broadcastInDim S150000x64 ![] bcast_S_S150000x64 : (⟨S_, .f32⟩ : BufTy).Contents (Elt F) → (⟨S150000x64, .f32⟩ : BufTy).Contents (Elt F)),
    unary main_arg5 main_v77 (broadcastInDim S1000000x1 ![0] bcast_S1000000_S1000000x1_0 : (⟨S1000000, .i32⟩ : BufTy).Contents (Elt F) → (⟨S1000000x1, .i32⟩ : BufTy).Contents (Elt F)),
    ternary main_v76 main_v77 main_v75 main_v78 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_v0 main_v79 (broadcastInDim S150000x1x64 ![0, 2] bcast_S150000x64_S150000x1x64_0_2 : (⟨S150000x64, .f32⟩ : BufTy).Contents (Elt F) → (⟨S150000x1x64, .f32⟩ : BufTy).Contents (Elt F)),
    unary main_v13 main_v80 (broadcastInDim S150000x1x64 ![0, 2] bcast_S150000x64_S150000x1x64_0_2 : (⟨S150000x64, .f32⟩ : BufTy).Contents (Elt F) → (⟨S150000x1x64, .f32⟩ : BufTy).Contents (Elt F)),
    unary main_v39 main_v81 (broadcastInDim S150000x1x64 ![0, 2] bcast_S150000x64_S150000x1x64_0_2 : (⟨S150000x64, .f32⟩ : BufTy).Contents (Elt F) → (⟨S150000x1x64, .f32⟩ : BufTy).Contents (Elt F)),
    unary main_v65 main_v82 (broadcastInDim S150000x1x64 ![0, 2] bcast_S150000x64_S150000x1x64_0_2 : (⟨S150000x64, .f32⟩ : BufTy).Contents (Elt F) → (⟨S150000x1x64, .f32⟩ : BufTy).Contents (Elt F)),
    nary ![main_v79, main_v80, main_v81, main_v82] main_v83 (fun u => concatenate S150000x4x64 1 [⟨S150000x1x64, u 0⟩, ⟨S150000x1x64, u 1⟩, ⟨S150000x1x64, u 2⟩, ⟨S150000x1x64, u 3⟩] concatenates_S150000x1x64_S150000x1x64_S150000x1x64_S150000x1x64_S150000x4x64_d1),
    nullary main_cst_16 (constant S_ .f32 0x00000000#32),
    binary main_v83 main_cst_16 main_v84 ((fun x v => Host.reduceAdd x v reducesTo_S150000x4x64_S150000x64_d1 h_S_) : (⟨S150000x4x64, .f32⟩ : BufTy).Contents (Elt F) → (⟨S_, .f32⟩ : BufTy).Contents (Elt F) → (⟨S150000x64, .f32⟩ : BufTy).Contents (Elt F)),
    nullary main_cst_17 (constant S_ .f32 0x40800000#32),
    unary main_cst_17 main_v85 (broadcastInDim S150000x64 ![] bcast_S_S150000x64 : (⟨S_, .f32⟩ : BufTy).Contents (Elt F) → (⟨S150000x64, .f32⟩ : BufTy).Contents (Elt F)),
    binary main_v84 main_v85 main_v86 (Host.divf : (⟨S150000x64, .f32⟩ : BufTy).Contents (Elt F) → (⟨S150000x64, .f32⟩ : BufTy).Contents (Elt F) → (⟨S150000x64, .f32⟩ : BufTy).Contents (Elt F)),
    unary main_v86 main_v87 ((extractStridedSlice S100000x64 ![0, 0] · slices_S150000x64_S100000x64_0_0) : (⟨S150000x64, .f32⟩ : BufTy).Contents (Elt F) → (⟨S100000x64, .f32⟩ : BufTy).Contents (Elt F)),
    unary main_v86 main_v88 ((extractStridedSlice S50000x64 ![100000, 0] · slices_S150000x64_S50000x64_100000_0) : (⟨S150000x64, .f32⟩ : BufTy).Contents (Elt F) → (⟨S50000x64, .f32⟩ : BufTy).Contents (Elt F)),
    unary main_v0 main_v89 (broadcastInDim S150000x1x64 ![0, 2] bcast_S150000x64_S150000x1x64_0_2 : (⟨S150000x64, .f32⟩ : BufTy).Contents (Elt F) → (⟨S150000x1x64, .f32⟩ : BufTy).Contents (Elt F)),
    unary main_v26 main_v90 (broadcastInDim S150000x1x64 ![0, 2] bcast_S150000x64_S150000x1x64_0_2 : (⟨S150000x64, .f32⟩ : BufTy).Contents (Elt F) → (⟨S150000x1x64, .f32⟩ : BufTy).Contents (Elt F)),
    unary main_v52 main_v91 (broadcastInDim S150000x1x64 ![0, 2] bcast_S150000x64_S150000x1x64_0_2 : (⟨S150000x64, .f32⟩ : BufTy).Contents (Elt F) → (⟨S150000x1x64, .f32⟩ : BufTy).Contents (Elt F)),
    unary main_v78 main_v92 (broadcastInDim S150000x1x64 ![0, 2] bcast_S150000x64_S150000x1x64_0_2 : (⟨S150000x64, .f32⟩ : BufTy).Contents (Elt F) → (⟨S150000x1x64, .f32⟩ : BufTy).Contents (Elt F)),
    nary ![main_v89, main_v90, main_v91, main_v92] main_v93 (fun u => concatenate S150000x4x64 1 [⟨S150000x1x64, u 0⟩, ⟨S150000x1x64, u 1⟩, ⟨S150000x1x64, u 2⟩, ⟨S150000x1x64, u 3⟩] concatenates_S150000x1x64_S150000x1x64_S150000x1x64_S150000x1x64_S150000x4x64_d1) ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., unary_bufs_sub .., unary_bufs_sub .., nary_bufs_sub .., nullary_bufs_sub .., binary_bufs_sub .., nullary_bufs_sub .., unary_bufs_sub .., binary_bufs_sub .., unary_bufs_sub .., unary_bufs_sub .., unary_bufs_sub .., unary_bufs_sub .., unary_bufs_sub .., unary_bufs_sub .., nary_bufs_sub ..⟩

/-! ## The four parts -/

/-- Operations 1 to 33 of @main. -/
abbrev part1 : List (HloOp τ sig (Elt F)) :=
  [ binary main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg4 main_v1 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v2 (broadcastInDim S1000000 ![] bcast_S_S1000000 : (⟨S_, .i32⟩ : BufTy).Contents (Elt F) → (⟨S1000000, .i32⟩ : BufTy).Contents (Elt F)),
    binary main_arg3 main_v2 main_v3 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 150000#32),
    unary main_c_0 main_v4 (broadcastInDim S1000000 ![] bcast_S_S1000000 : (⟨S_, .i32⟩ : BufTy).Contents (Elt F) → (⟨S1000000, .i32⟩ : BufTy).Contents (Elt F)),
    binary main_arg3 main_v4 main_v5 (addi : (⟨S1000000, .i32⟩ : BufTy).Contents (Elt F) → (⟨S1000000, .i32⟩ : BufTy).Contents (Elt F) → (⟨S1000000, .i32⟩ : BufTy).Contents (Elt F)),
    ternary main_v3 main_v5 main_arg3 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v6 main_v7 (broadcastInDim S1000000x1 ![0] bcast_S1000000_S1000000x1_0 : (⟨S1000000, .i32⟩ : BufTy).Contents (Elt F) → (⟨S1000000x1, .i32⟩ : BufTy).Contents (Elt F)),
    binary main_v0 main_v7 main_v8 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v1 main_v9 (broadcastInDim S1000000x64 ![0, 1] bcast_S1000000x1_S1000000x64_0_1 : (⟨S1000000x1, .f32⟩ : BufTy).Contents (Elt F) → (⟨S1000000x64, .f32⟩ : BufTy).Contents (Elt F)),
    binary main_v9 main_v8 main_v10 (mulf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg2 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v14 (broadcastInDim S1000000x1 ![0] bcast_S1000000_S1000000x1_0 : (⟨S1000000, .f32⟩ : BufTy).Contents (Elt F) → (⟨S1000000x1, .f32⟩ : BufTy).Contents (Elt F)),
    nullary main_c_1 (constantI S_ 32 0#32),
    unary main_c_1 main_v15 (broadcastInDim S1000000 ![] bcast_S_S1000000 : (⟨S_, .i32⟩ : BufTy).Contents (Elt F) → (⟨S1000000, .i32⟩ : BufTy).Contents (Elt F)),
    binary main_arg6 main_v15 main_v16 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 150000#32),
    unary main_c_2 main_v17 (broadcastInDim S1000000 ![] bcast_S_S1000000 : (⟨S_, .i32⟩ : BufTy).Contents (Elt F) → (⟨S1000000, .i32⟩ : BufTy).Contents (Elt F)),
    binary main_arg6 main_v17 main_v18 (addi : (⟨S1000000, .i32⟩ : BufTy).Contents (Elt F) → (⟨S1000000, .i32⟩ : BufTy).Contents (Elt F) → (⟨S1000000, .i32⟩ : BufTy).Contents (Elt F)),
    ternary main_v16 main_v18 main_arg6 main_v19 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v19 main_v20 (broadcastInDim S1000000x1 ![0] bcast_S1000000_S1000000x1_0 : (⟨S1000000, .i32⟩ : BufTy).Contents (Elt F) → (⟨S1000000x1, .i32⟩ : BufTy).Contents (Elt F)),
    binary main_v0 main_v20 main_v21 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v14 main_v22 (broadcastInDim S1000000x64 ![0, 1] bcast_S1000000x1_S1000000x64_0_1 : (⟨S1000000x1, .f32⟩ : BufTy).Contents (Elt F) → (⟨S1000000x64, .f32⟩ : BufTy).Contents (Elt F)),
    binary main_v22 main_v21 main_v23 (mulf : (⟨S1000000x64, .f32⟩ : BufTy).Contents (Elt F) → (⟨S1000000x64, .f32⟩ : BufTy).Contents (Elt F) → (⟨S1000000x64, .f32⟩ : BufTy).Contents (Elt F)),
    nullary main_cst_3 (constant S_ .f32 0x00000000#32),
    unary main_cst_3 main_v24 (broadcastInDim S150000x64 ![] bcast_S_S150000x64 : (⟨S_, .f32⟩ : BufTy).Contents (Elt F) → (⟨S150000x64, .f32⟩ : BufTy).Contents (Elt F)),
    unary main_arg5 main_v25 (broadcastInDim S1000000x1 ![0] bcast_S1000000_S1000000x1_0 : (⟨S1000000, .i32⟩ : BufTy).Contents (Elt F) → (⟨S1000000x1, .i32⟩ : BufTy).Contents (Elt F)),
    ternary main_v24 main_v25 main_v23 main_v26 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]
/-- The buffers they write. -/
abbrev part1_W : List (Ref sig .tc) := [main_v0, main_v1, main_c, main_v2, main_v3, main_c_0, main_v4, main_v5, main_v6, main_v7, main_v8, main_v9, main_v10, main_cst, main_v11, main_v12, main_v13, main_v14, main_c_1, main_v15, main_v16, main_c_2, main_v17, main_v18, main_v19, main_v20, main_v21, main_v22, main_v23, main_cst_3, main_v24, main_v25, main_v26]
theorem part1_writes : (part1 : List (HloOp τ sig (Elt F))).Forall fun op => op.writes ⊆ (part1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents through them. -/
theorem keep1 (W : Valuation τ sig (Elt F)) (r : Ref sig .tc) (h : r ∉ part1_W) :
    after part1 W (Proc.devRef .tc r) = W (Proc.devRef .tc r) :=
  after_of_writes_sub part1 _ part1_writes h

/-- Operations 34 to 65 of @main. -/
abbrev part2 : List (HloOp τ sig (Elt F)) :=
  [ unary main_arg4 main_v27 (broadcastInDim S1000000x1 ![0] bcast_S1000000_S1000000x1_0 : (⟨S1000000, .f32⟩ : BufTy).Contents (Elt F) → (⟨S1000000x1, .f32⟩ : BufTy).Contents (Elt F)),
    nullary main_c_4 (constantI S_ 32 0#32),
    unary main_c_4 main_v28 (broadcastInDim S1000000 ![] bcast_S_S1000000 : (⟨S_, .i32⟩ : BufTy).Contents (Elt F) → (⟨S1000000, .i32⟩ : BufTy).Contents (Elt F)),
    binary main_arg3 main_v28 main_v29 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 150000#32),
    unary main_c_5 main_v30 (broadcastInDim S1000000 ![] bcast_S_S1000000 : (⟨S_, .i32⟩ : BufTy).Contents (Elt F) → (⟨S1000000, .i32⟩ : BufTy).Contents (Elt F)),
    binary main_arg3 main_v30 main_v31 (addi : (⟨S1000000, .i32⟩ : BufTy).Contents (Elt F) → (⟨S1000000, .i32⟩ : BufTy).Contents (Elt F) → (⟨S1000000, .i32⟩ : BufTy).Contents (Elt F)),
    ternary main_v29 main_v31 main_arg3 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v32 main_v33 (broadcastInDim S1000000x1 ![0] bcast_S1000000_S1000000x1_0 : (⟨S1000000, .i32⟩ : BufTy).Contents (Elt F) → (⟨S1000000x1, .i32⟩ : BufTy).Contents (Elt F)),
    binary main_v0 main_v33 main_v34 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v27 main_v35 (broadcastInDim S1000000x64 ![0, 1] bcast_S1000000x1_S1000000x64_0_1 : (⟨S1000000x1, .f32⟩ : BufTy).Contents (Elt F) → (⟨S1000000x64, .f32⟩ : BufTy).Contents (Elt F)),
    binary main_v35 main_v34 main_v36 (mulf : (⟨S1000000x64, .f32⟩ : BufTy).Contents (Elt F) → (⟨S1000000x64, .f32⟩ : BufTy).Contents (Elt F) → (⟨S1000000x64, .f32⟩ : BufTy).Contents (Elt F)),
    nullary main_cst_6 (constant S_ .f32 0x00000000#32),
    unary main_cst_6 main_v37 (broadcastInDim S150000x64 ![] bcast_S_S150000x64 : (⟨S_, .f32⟩ : BufTy).Contents (Elt F) → (⟨S150000x64, .f32⟩ : BufTy).Contents (Elt F)),
    unary main_arg2 main_v38 (broadcastInDim S1000000x1 ![0] bcast_S1000000_S1000000x1_0 : (⟨S1000000, .i32⟩ : BufTy).Contents (Elt F) → (⟨S1000000x1, .i32⟩ : BufTy).Contents (Elt F)),
    ternary main_v37 main_v38 main_v36 main_v39 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v40 (broadcastInDim S1000000x1 ![0] bcast_S1000000_S1000000x1_0 : (⟨S1000000, .f32⟩ : BufTy).Contents (Elt F) → (⟨S1000000x1, .f32⟩ : BufTy).Contents (Elt F)),
    nullary main_c_7 (constantI S_ 32 0#32),
    unary main_c_7 main_v41 (broadcastInDim S1000000 ![] bcast_S_S1000000 : (⟨S_, .i32⟩ : BufTy).Contents (Elt F) → (⟨S1000000, .i32⟩ : BufTy).Contents (Elt F)),
    binary main_arg6 main_v41 main_v42 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 150000#32),
    unary main_c_8 main_v43 (broadcastInDim S1000000 ![] bcast_S_S1000000 : (⟨S_, .i32⟩ : BufTy).Contents (Elt F) → (⟨S1000000, .i32⟩ : BufTy).Contents (Elt F)),
    binary main_arg6 main_v43 main_v44 (addi : (⟨S1000000, .i32⟩ : BufTy).Contents (Elt F) → (⟨S1000000, .i32⟩ : BufTy).Contents (Elt F) → (⟨S1000000, .i32⟩ : BufTy).Contents (Elt F)),
    ternary main_v42 main_v44 main_arg6 main_v45 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v45 main_v46 (broadcastInDim S1000000x1 ![0] bcast_S1000000_S1000000x1_0 : (⟨S1000000, .i32⟩ : BufTy).Contents (Elt F) → (⟨S1000000x1, .i32⟩ : BufTy).Contents (Elt F)),
    binary main_v0 main_v46 main_v47 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v40 main_v48 (broadcastInDim S1000000x64 ![0, 1] bcast_S1000000x1_S1000000x64_0_1 : (⟨S1000000x1, .f32⟩ : BufTy).Contents (Elt F) → (⟨S1000000x64, .f32⟩ : BufTy).Contents (Elt F)),
    binary main_v48 main_v47 main_v49 (mulf : (⟨S1000000x64, .f32⟩ : BufTy).Contents (Elt F) → (⟨S1000000x64, .f32⟩ : BufTy).Contents (Elt F) → (⟨S1000000x64, .f32⟩ : BufTy).Contents (Elt F)),
    nullary main_cst_9 (constant S_ .f32 0x00000000#32),
    unary main_cst_9 main_v50 (broadcastInDim S150000x64 ![] bcast_S_S150000x64 : (⟨S_, .f32⟩ : BufTy).Contents (Elt F) → (⟨S150000x64, .f32⟩ : BufTy).Contents (Elt F)),
    unary main_arg5 main_v51 (broadcastInDim S1000000x1 ![0] bcast_S1000000_S1000000x1_0 : (⟨S1000000, .i32⟩ : BufTy).Contents (Elt F) → (⟨S1000000x1, .i32⟩ : BufTy).Contents (Elt F)),
    ternary main_v50 main_v51 main_v49 main_v52 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]
/-- The buffers they write. -/
abbrev part2_W : List (Ref sig .tc) := [main_v27, main_c_4, main_v28, main_v29, main_c_5, main_v30, main_v31, main_v32, main_v33, main_v34, main_v35, main_v36, main_cst_6, main_v37, main_v38, main_v39, main_v40, main_c_7, main_v41, main_v42, main_c_8, main_v43, main_v44, main_v45, main_v46, main_v47, main_v48, main_v49, main_cst_9, main_v50, main_v51, main_v52]
theorem part2_writes : (part2 : List (HloOp τ sig (Elt F))).Forall fun op => op.writes ⊆ (part2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents through them. -/
theorem keep2 (W : Valuation τ sig (Elt F)) (r : Ref sig .tc) (h : r ∉ part2_W) :
    after part2 W (Proc.devRef .tc r) = W (Proc.devRef .tc r) :=
  after_of_writes_sub part2 _ part2_writes h

/-- Operations 66 to 97 of @main. -/
abbrev part3 : List (HloOp τ sig (Elt F)) :=
  [ unary main_arg4 main_v53 (broadcastInDim S1000000x1 ![0] bcast_S1000000_S1000000x1_0 : (⟨S1000000, .f32⟩ : BufTy).Contents (Elt F) → (⟨S1000000x1, .f32⟩ : BufTy).Contents (Elt F)),
    nullary main_c_10 (constantI S_ 32 0#32),
    unary main_c_10 main_v54 (broadcastInDim S1000000 ![] bcast_S_S1000000 : (⟨S_, .i32⟩ : BufTy).Contents (Elt F) → (⟨S1000000, .i32⟩ : BufTy).Contents (Elt F)),
    binary main_arg3 main_v54 main_v55 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 150000#32),
    unary main_c_11 main_v56 (broadcastInDim S1000000 ![] bcast_S_S1000000 : (⟨S_, .i32⟩ : BufTy).Contents (Elt F) → (⟨S1000000, .i32⟩ : BufTy).Contents (Elt F)),
    binary main_arg3 main_v56 main_v57 (addi : (⟨S1000000, .i32⟩ : BufTy).Contents (Elt F) → (⟨S1000000, .i32⟩ : BufTy).Contents (Elt F) → (⟨S1000000, .i32⟩ : BufTy).Contents (Elt F)),
    ternary main_v55 main_v57 main_arg3 main_v58 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v58 main_v59 (broadcastInDim S1000000x1 ![0] bcast_S1000000_S1000000x1_0 : (⟨S1000000, .i32⟩ : BufTy).Contents (Elt F) → (⟨S1000000x1, .i32⟩ : BufTy).Contents (Elt F)),
    binary main_v0 main_v59 main_v60 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v53 main_v61 (broadcastInDim S1000000x64 ![0, 1] bcast_S1000000x1_S1000000x64_0_1 : (⟨S1000000x1, .f32⟩ : BufTy).Contents (Elt F) → (⟨S1000000x64, .f32⟩ : BufTy).Contents (Elt F)),
    binary main_v61 main_v60 main_v62 (mulf : (⟨S1000000x64, .f32⟩ : BufTy).Contents (Elt F) → (⟨S1000000x64, .f32⟩ : BufTy).Contents (Elt F) → (⟨S1000000x64, .f32⟩ : BufTy).Contents (Elt F)),
    nullary main_cst_12 (constant S_ .f32 0x00000000#32),
    unary main_cst_12 main_v63 (broadcastInDim S150000x64 ![] bcast_S_S150000x64 : (⟨S_, .f32⟩ : BufTy).Contents (Elt F) → (⟨S150000x64, .f32⟩ : BufTy).Contents (Elt F)),
    unary main_arg2 main_v64 (broadcastInDim S1000000x1 ![0] bcast_S1000000_S1000000x1_0 : (⟨S1000000, .i32⟩ : BufTy).Contents (Elt F) → (⟨S1000000x1, .i32⟩ : BufTy).Contents (Elt F)),
    ternary main_v63 main_v64 main_v62 main_v65 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v66 (broadcastInDim S1000000x1 ![0] bcast_S1000000_S1000000x1_0 : (⟨S1000000, .f32⟩ : BufTy).Contents (Elt F) → (⟨S1000000x1, .f32⟩ : BufTy).Contents (Elt F)),
    nullary main_c_13 (constantI S_ 32 0#32),
    unary main_c_13 main_v67 (broadcastInDim S1000000 ![] bcast_S_S1000000 : (⟨S_, .i32⟩ : BufTy).Contents (Elt F) → (⟨S1000000, .i32⟩ : BufTy).Contents (Elt F)),
    binary main_arg6 main_v67 main_v68 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 150000#32),
    unary main_c_14 main_v69 (broadcastInDim S1000000 ![] bcast_S_S1000000 : (⟨S_, .i32⟩ : BufTy).Contents (Elt F) → (⟨S1000000, .i32⟩ : BufTy).Contents (Elt F)),
    binary main_arg6 main_v69 main_v70 (addi : (⟨S1000000, .i32⟩ : BufTy).Contents (Elt F) → (⟨S1000000, .i32⟩ : BufTy).Contents (Elt F) → (⟨S1000000, .i32⟩ : BufTy).Contents (Elt F)),
    ternary main_v68 main_v70 main_arg6 main_v71 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v71 main_v72 (broadcastInDim S1000000x1 ![0] bcast_S1000000_S1000000x1_0 : (⟨S1000000, .i32⟩ : BufTy).Contents (Elt F) → (⟨S1000000x1, .i32⟩ : BufTy).Contents (Elt F)),
    binary main_v0 main_v72 main_v73 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v66 main_v74 (broadcastInDim S1000000x64 ![0, 1] bcast_S1000000x1_S1000000x64_0_1 : (⟨S1000000x1, .f32⟩ : BufTy).Contents (Elt F) → (⟨S1000000x64, .f32⟩ : BufTy).Contents (Elt F)),
    binary main_v74 main_v73 main_v75 (mulf : (⟨S1000000x64, .f32⟩ : BufTy).Contents (Elt F) → (⟨S1000000x64, .f32⟩ : BufTy).Contents (Elt F) → (⟨S1000000x64, .f32⟩ : BufTy).Contents (Elt F)),
    nullary main_cst_15 (constant S_ .f32 0x00000000#32),
    unary main_cst_15 main_v76 (broadcastInDim S150000x64 ![] bcast_S_S150000x64 : (⟨S_, .f32⟩ : BufTy).Contents (Elt F) → (⟨S150000x64, .f32⟩ : BufTy).Contents (Elt F)),
    unary main_arg5 main_v77 (broadcastInDim S1000000x1 ![0] bcast_S1000000_S1000000x1_0 : (⟨S1000000, .i32⟩ : BufTy).Contents (Elt F) → (⟨S1000000x1, .i32⟩ : BufTy).Contents (Elt F)),
    ternary main_v76 main_v77 main_v75 main_v78 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]
/-- The buffers they write. -/
abbrev part3_W : List (Ref sig .tc) := [main_v53, main_c_10, main_v54, main_v55, main_c_11, main_v56, main_v57, main_v58, main_v59, main_v60, main_v61, main_v62, main_cst_12, main_v63, main_v64, main_v65, main_v66, main_c_13, main_v67, main_v68, main_c_14, main_v69, main_v70, main_v71, main_v72, main_v73, main_v74, main_v75, main_cst_15, main_v76, main_v77, main_v78]
theorem part3_writes : (part3 : List (HloOp τ sig (Elt F))).Forall fun op => op.writes ⊆ (part3_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents through them. -/
theorem keep3 (W : Valuation τ sig (Elt F)) (r : Ref sig .tc) (h : r ∉ part3_W) :
    after part3 W (Proc.devRef .tc r) = W (Proc.devRef .tc r) :=
  after_of_writes_sub part3 _ part3_writes h

/-- Operations 98 to 114 of @main. -/
abbrev part4 : List (HloOp τ sig (Elt F)) :=
  [ unary main_v0 main_v79 (broadcastInDim S150000x1x64 ![0, 2] bcast_S150000x64_S150000x1x64_0_2 : (⟨S150000x64, .f32⟩ : BufTy).Contents (Elt F) → (⟨S150000x1x64, .f32⟩ : BufTy).Contents (Elt F)),
    unary main_v13 main_v80 (broadcastInDim S150000x1x64 ![0, 2] bcast_S150000x64_S150000x1x64_0_2 : (⟨S150000x64, .f32⟩ : BufTy).Contents (Elt F) → (⟨S150000x1x64, .f32⟩ : BufTy).Contents (Elt F)),
    unary main_v39 main_v81 (broadcastInDim S150000x1x64 ![0, 2] bcast_S150000x64_S150000x1x64_0_2 : (⟨S150000x64, .f32⟩ : BufTy).Contents (Elt F) → (⟨S150000x1x64, .f32⟩ : BufTy).Contents (Elt F)),
    unary main_v65 main_v82 (broadcastInDim S150000x1x64 ![0, 2] bcast_S150000x64_S150000x1x64_0_2 : (⟨S150000x64, .f32⟩ : BufTy).Contents (Elt F) → (⟨S150000x1x64, .f32⟩ : BufTy).Contents (Elt F)),
    nary ![main_v79, main_v80, main_v81, main_v82] main_v83 (fun u => concatenate S150000x4x64 1 [⟨S150000x1x64, u 0⟩, ⟨S150000x1x64, u 1⟩, ⟨S150000x1x64, u 2⟩, ⟨S150000x1x64, u 3⟩] concatenates_S150000x1x64_S150000x1x64_S150000x1x64_S150000x1x64_S150000x4x64_d1),
    nullary main_cst_16 (constant S_ .f32 0x00000000#32),
    binary main_v83 main_cst_16 main_v84 ((fun x v => Host.reduceAdd x v reducesTo_S150000x4x64_S150000x64_d1 h_S_) : (⟨S150000x4x64, .f32⟩ : BufTy).Contents (Elt F) → (⟨S_, .f32⟩ : BufTy).Contents (Elt F) → (⟨S150000x64, .f32⟩ : BufTy).Contents (Elt F)),
    nullary main_cst_17 (constant S_ .f32 0x40800000#32),
    unary main_cst_17 main_v85 (broadcastInDim S150000x64 ![] bcast_S_S150000x64 : (⟨S_, .f32⟩ : BufTy).Contents (Elt F) → (⟨S150000x64, .f32⟩ : BufTy).Contents (Elt F)),
    binary main_v84 main_v85 main_v86 (Host.divf : (⟨S150000x64, .f32⟩ : BufTy).Contents (Elt F) → (⟨S150000x64, .f32⟩ : BufTy).Contents (Elt F) → (⟨S150000x64, .f32⟩ : BufTy).Contents (Elt F)),
    unary main_v86 main_v87 ((extractStridedSlice S100000x64 ![0, 0] · slices_S150000x64_S100000x64_0_0) : (⟨S150000x64, .f32⟩ : BufTy).Contents (Elt F) → (⟨S100000x64, .f32⟩ : BufTy).Contents (Elt F)),
    unary main_v86 main_v88 ((extractStridedSlice S50000x64 ![100000, 0] · slices_S150000x64_S50000x64_100000_0) : (⟨S150000x64, .f32⟩ : BufTy).Contents (Elt F) → (⟨S50000x64, .f32⟩ : BufTy).Contents (Elt F)),
    unary main_v0 main_v89 (broadcastInDim S150000x1x64 ![0, 2] bcast_S150000x64_S150000x1x64_0_2 : (⟨S150000x64, .f32⟩ : BufTy).Contents (Elt F) → (⟨S150000x1x64, .f32⟩ : BufTy).Contents (Elt F)),
    unary main_v26 main_v90 (broadcastInDim S150000x1x64 ![0, 2] bcast_S150000x64_S150000x1x64_0_2 : (⟨S150000x64, .f32⟩ : BufTy).Contents (Elt F) → (⟨S150000x1x64, .f32⟩ : BufTy).Contents (Elt F)),
    unary main_v52 main_v91 (broadcastInDim S150000x1x64 ![0, 2] bcast_S150000x64_S150000x1x64_0_2 : (⟨S150000x64, .f32⟩ : BufTy).Contents (Elt F) → (⟨S150000x1x64, .f32⟩ : BufTy).Contents (Elt F)),
    unary main_v78 main_v92 (broadcastInDim S150000x1x64 ![0, 2] bcast_S150000x64_S150000x1x64_0_2 : (⟨S150000x64, .f32⟩ : BufTy).Contents (Elt F) → (⟨S150000x1x64, .f32⟩ : BufTy).Contents (Elt F)),
    nary ![main_v89, main_v90, main_v91, main_v92] main_v93 (fun u => concatenate S150000x4x64 1 [⟨S150000x1x64, u 0⟩, ⟨S150000x1x64, u 1⟩, ⟨S150000x1x64, u 2⟩, ⟨S150000x1x64, u 3⟩] concatenates_S150000x1x64_S150000x1x64_S150000x1x64_S150000x1x64_S150000x4x64_d1) ]
/-- The buffers they write. -/
abbrev part4_W : List (Ref sig .tc) := [main_v79, main_v80, main_v81, main_v82, main_v83, main_cst_16, main_v84, main_cst_17, main_v85, main_v86, main_v87, main_v88, main_v89, main_v90, main_v91, main_v92, main_v93]
theorem part4_writes : (part4 : List (HloOp τ sig (Elt F))).Forall fun op => op.writes ⊆ (part4_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer they do not write keeps its contents through them. -/
theorem keep4 (W : Valuation τ sig (Elt F)) (r : Ref sig .tc) (h : r ∉ part4_W) :
    after part4 W (Proc.devRef .tc r) = W (Proc.devRef .tc r) :=
  after_of_writes_sub part4 _ part4_writes h

/-- The line is its four parts, one after the other. -/
theorem ops_parts : (ops : List (HloOp τ sig (Elt F))) = part1 ++ (part2 ++ (part3 ++ part4)) := rfl

/-- Running two stretches one after the other is running the second from where the first ends. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

theorem after_ops (W : Valuation τ sig (Elt F)) :
    after ops W = after part4 (after part3 (after part2 (after part1 W))) := by
  rw [ops_parts, after_append, after_append, after_append]

/-! ## What the parts compute -/

/-- The table of all embeddings: the user rows followed by the item rows. -/
def ego (x0 : (⟨S100000x64, .f32⟩ : BufTy).Contents (Elt F)) (x1 : (⟨S50000x64, .f32⟩ : BufTy).Contents (Elt F)) :
    (⟨S150000x64, .f32⟩ : BufTy).Contents (Elt F) :=
  concatenate S150000x64 0 [⟨S100000x64, x0⟩, ⟨S50000x64, x1⟩] concatenates_S100000x64_S50000x64_S150000x64_d0

/-- A sparse product with a table `e`: row `rows k` receives `vals k` times `e`'s row `cols k` (a negative column index
    counted from the end), summed over `k`. -/
def spmmT (e : (⟨S150000x64, .f32⟩ : BufTy).Contents (Elt F))
    (rows cols : (⟨S1000000, .i32⟩ : BufTy).Contents (Elt F)) (vals : (⟨S1000000, .f32⟩ : BufTy).Contents (Elt F)) :
    (⟨S150000x64, .f32⟩ : BufTy).Contents (Elt F) :=
  Host.scatterAdd scatter_S150000x64_S1000000x1_S1000000x64_1_0_0_1
    (broadcastInDim S150000x64 ![] bcast_S_S150000x64 (constant (F := F) S_ .f32 0x00000000#32))
    (broadcastInDim S1000000x1 ![0] bcast_S1000000_S1000000x1_0 rows)
    (mulf (broadcastInDim S1000000x64 ![0, 1] bcast_S1000000x1_S1000000x64_0_1 (broadcastInDim S1000000x1 ![0] bcast_S1000000_S1000000x1_0 vals))
      (Host.gather gather_S150000x64_S1000000x1_S1000000x64_1_0_n_n_0_1_164 e
        (broadcastInDim S1000000x1 ![0] bcast_S1000000_S1000000x1_0
          (select (cmpi .slt cols (broadcastInDim S1000000 ![] bcast_S_S1000000 (constantI S_ 32 0#32)))
            (addi cols (broadcastInDim S1000000 ![] bcast_S_S1000000 (constantI S_ 32 150000#32))) cols))))

/-- Four tables stacked as four layers along a new middle axis. -/
def layers4 (a b c d : (⟨S150000x64, .f32⟩ : BufTy).Contents (Elt F)) : (⟨S150000x4x64, .f32⟩ : BufTy).Contents (Elt F) :=
  concatenate S150000x4x64 1 [⟨S150000x1x64, broadcastInDim S150000x1x64 ![0, 2] bcast_S150000x64_S150000x1x64_0_2 a⟩,
    ⟨S150000x1x64, broadcastInDim S150000x1x64 ![0, 2] bcast_S150000x64_S150000x1x64_0_2 b⟩,
    ⟨S150000x1x64, broadcastInDim S150000x1x64 ![0, 2] bcast_S150000x64_S150000x1x64_0_2 c⟩,
    ⟨S150000x1x64, broadcastInDim S150000x1x64 ![0, 2] bcast_S150000x64_S150000x1x64_0_2 d⟩]
    concatenates_S150000x1x64_S150000x1x64_S150000x1x64_S150000x1x64_S150000x4x64_d1

/-- The layers of a stack summed from `0` and divided by `4`. -/
def layerMean (X : (⟨S150000x4x64, .f32⟩ : BufTy).Contents (Elt F)) : (⟨S150000x64, .f32⟩ : BufTy).Contents (Elt F) :=
  Host.divf (Host.reduceAdd X (constant (F := F) S_ .f32 0x00000000#32) reducesTo_S150000x4x64_S150000x64_d1 h_S_)
    (broadcastInDim S150000x64 ![] bcast_S_S150000x64 (constant (F := F) S_ .f32 0x40800000#32))

/-- Part 1 builds the table from the two embedding arguments. -/
theorem part1_ego (W : Valuation τ sig (Elt F)) :
    after part1 W (Proc.devRef .tc main_v0) = ego (W (Proc.devRef .tc main_arg0)) (W (Proc.devRef .tc main_arg1)) := by
  after_results_simp <;> rfl

/-- Part 1's adjacency product. -/
theorem part1_adj (W : Valuation τ sig (Elt F)) :
    after part1 W (Proc.devRef .tc main_v13) = spmmT (ego (W (Proc.devRef .tc main_arg0)) (W (Proc.devRef .tc main_arg1))) (W (Proc.devRef .tc main_arg2)) (W (Proc.devRef .tc main_arg3)) (W (Proc.devRef .tc main_arg4)) := by
  after_results_simp <;> rfl

/-- Part 1's path product. -/
theorem part1_path (W : Valuation τ sig (Elt F)) :
    after part1 W (Proc.devRef .tc main_v26) = spmmT (ego (W (Proc.devRef .tc main_arg0)) (W (Proc.devRef .tc main_arg1))) (W (Proc.devRef .tc main_arg5)) (W (Proc.devRef .tc main_arg6)) (W (Proc.devRef .tc main_arg7)) := by
  after_results_simp <;> rfl

/-- Part 2's adjacency product, from the table it finds. -/
theorem part2_adj (W : Valuation τ sig (Elt F)) :
    after part2 W (Proc.devRef .tc main_v39) = spmmT (W (Proc.devRef .tc main_v0)) (W (Proc.devRef .tc main_arg2)) (W (Proc.devRef .tc main_arg3)) (W (Proc.devRef .tc main_arg4)) := by
  after_results_simp <;> rfl

/-- Part 2's path product. -/
theorem part2_path (W : Valuation τ sig (Elt F)) :
    after part2 W (Proc.devRef .tc main_v52) = spmmT (W (Proc.devRef .tc main_v0)) (W (Proc.devRef .tc main_arg5)) (W (Proc.devRef .tc main_arg6)) (W (Proc.devRef .tc main_arg7)) := by
  after_results_simp <;> rfl

/-- Part 3's adjacency product. -/
theorem part3_adj (W : Valuation τ sig (Elt F)) :
    after part3 W (Proc.devRef .tc main_v65) = spmmT (W (Proc.devRef .tc main_v0)) (W (Proc.devRef .tc main_arg2)) (W (Proc.devRef .tc main_arg3)) (W (Proc.devRef .tc main_arg4)) := by
  after_results_simp <;> rfl

/-- Part 3's path product. -/
theorem part3_path (W : Valuation τ sig (Elt F)) :
    after part3 W (Proc.devRef .tc main_v78) = spmmT (W (Proc.devRef .tc main_v0)) (W (Proc.devRef .tc main_arg5)) (W (Proc.devRef .tc main_arg6)) (W (Proc.devRef .tc main_arg7)) := by
  after_results_simp <;> rfl

/-- Part 4 stacks the table and the three adjacency products. -/
theorem part4_stack (W : Valuation τ sig (Elt F)) :
    after part4 W (Proc.devRef .tc main_v83) = layers4 (W (Proc.devRef .tc main_v0)) (W (Proc.devRef .tc main_v13)) (W (Proc.devRef .tc main_v39)) (W (Proc.devRef .tc main_v65)) := by
  after_results_simp <;> rfl

/-- Part 4 stacks the table and the three path products. -/
theorem part4_stack' (W : Valuation τ sig (Elt F)) :
    after part4 W (Proc.devRef .tc main_v93) = layers4 (W (Proc.devRef .tc main_v0)) (W (Proc.devRef .tc main_v26)) (W (Proc.devRef .tc main_v52)) (W (Proc.devRef .tc main_v78)) := by
  after_results_simp <;> rfl

/-- Part 4's user rows of the first stack's layer mean. -/
theorem part4_user (W : Valuation τ sig (Elt F)) :
    after part4 W (Proc.devRef .tc main_v87) = extractStridedSlice S100000x64 ![0, 0] (layerMean (layers4 (W (Proc.devRef .tc main_v0)) (W (Proc.devRef .tc main_v13)) (W (Proc.devRef .tc main_v39)) (W (Proc.devRef .tc main_v65)))) slices_S150000x64_S100000x64_0_0 := by
  after_results_simp <;> rfl

/-- Part 4's item rows of the first stack's layer mean. -/
theorem part4_item (W : Valuation τ sig (Elt F)) :
    after part4 W (Proc.devRef .tc main_v88) = extractStridedSlice S50000x64 ![100000, 0] (layerMean (layers4 (W (Proc.devRef .tc main_v0)) (W (Proc.devRef .tc main_v13)) (W (Proc.devRef .tc main_v39)) (W (Proc.devRef .tc main_v65)))) slices_S150000x64_S50000x64_100000_0 := by
  after_results_simp <;> rfl

/-! ## Every buffer traced back to where the line starts -/

section Chains
variable (W : Valuation τ sig (Elt F))

theorem arg2_at1 : after part1 W (Proc.devRef .tc main_arg2) = W (Proc.devRef .tc main_arg2) := keep1 W main_arg2 (by decide)
theorem arg2_at2 : after part2 (after part1 W) (Proc.devRef .tc main_arg2) = W (Proc.devRef .tc main_arg2) := (keep2 _ main_arg2 (by decide)).trans (arg2_at1 W)
theorem arg3_at1 : after part1 W (Proc.devRef .tc main_arg3) = W (Proc.devRef .tc main_arg3) := keep1 W main_arg3 (by decide)
theorem arg3_at2 : after part2 (after part1 W) (Proc.devRef .tc main_arg3) = W (Proc.devRef .tc main_arg3) := (keep2 _ main_arg3 (by decide)).trans (arg3_at1 W)
theorem arg4_at1 : after part1 W (Proc.devRef .tc main_arg4) = W (Proc.devRef .tc main_arg4) := keep1 W main_arg4 (by decide)
theorem arg4_at2 : after part2 (after part1 W) (Proc.devRef .tc main_arg4) = W (Proc.devRef .tc main_arg4) := (keep2 _ main_arg4 (by decide)).trans (arg4_at1 W)
theorem arg5_at1 : after part1 W (Proc.devRef .tc main_arg5) = W (Proc.devRef .tc main_arg5) := keep1 W main_arg5 (by decide)
theorem arg5_at2 : after part2 (after part1 W) (Proc.devRef .tc main_arg5) = W (Proc.devRef .tc main_arg5) := (keep2 _ main_arg5 (by decide)).trans (arg5_at1 W)
theorem arg6_at1 : after part1 W (Proc.devRef .tc main_arg6) = W (Proc.devRef .tc main_arg6) := keep1 W main_arg6 (by decide)
theorem arg6_at2 : after part2 (after part1 W) (Proc.devRef .tc main_arg6) = W (Proc.devRef .tc main_arg6) := (keep2 _ main_arg6 (by decide)).trans (arg6_at1 W)
theorem arg7_at1 : after part1 W (Proc.devRef .tc main_arg7) = W (Proc.devRef .tc main_arg7) := keep1 W main_arg7 (by decide)
theorem arg7_at2 : after part2 (after part1 W) (Proc.devRef .tc main_arg7) = W (Proc.devRef .tc main_arg7) := (keep2 _ main_arg7 (by decide)).trans (arg7_at1 W)

/-- The table, after two and after three parts, is still what part 1 built. -/
theorem ego_at2 : after part2 (after part1 W) (Proc.devRef .tc main_v0) = ego (W (Proc.devRef .tc main_arg0)) (W (Proc.devRef .tc main_arg1)) := (keep2 _ main_v0 (by decide)).trans (part1_ego W)
theorem ego_at3 : after part3 (after part2 (after part1 W)) (Proc.devRef .tc main_v0) = ego (W (Proc.devRef .tc main_arg0)) (W (Proc.devRef .tc main_arg1)) := (keep3 _ main_v0 (by decide)).trans (ego_at2 W)

/-- The first pair of products, after three parts. -/
theorem adj1_at3 : after part3 (after part2 (after part1 W)) (Proc.devRef .tc main_v13) = spmmT (ego (W (Proc.devRef .tc main_arg0)) (W (Proc.devRef .tc main_arg1))) (W (Proc.devRef .tc main_arg2)) (W (Proc.devRef .tc main_arg3)) (W (Proc.devRef .tc main_arg4)) :=
  (keep3 _ main_v13 (by decide)).trans ((keep2 _ main_v13 (by decide)).trans (part1_adj W))
theorem path1_at3 : after part3 (after part2 (after part1 W)) (Proc.devRef .tc main_v26) = spmmT (ego (W (Proc.devRef .tc main_arg0)) (W (Proc.devRef .tc main_arg1))) (W (Proc.devRef .tc main_arg5)) (W (Proc.devRef .tc main_arg6)) (W (Proc.devRef .tc main_arg7)) :=
  (keep3 _ main_v26 (by decide)).trans ((keep2 _ main_v26 (by decide)).trans (part1_path W))

/-- The second pair: part 2 recomputes the same products from the same table and arguments. -/
theorem adj2_at3 : after part3 (after part2 (after part1 W)) (Proc.devRef .tc main_v39) = spmmT (ego (W (Proc.devRef .tc main_arg0)) (W (Proc.devRef .tc main_arg1))) (W (Proc.devRef .tc main_arg2)) (W (Proc.devRef .tc main_arg3)) (W (Proc.devRef .tc main_arg4)) :=
  (keep3 _ main_v39 (by decide)).trans ((part2_adj (after part1 W)).trans (by rw [part1_ego, arg2_at1, arg3_at1, arg4_at1]))
theorem path2_at3 : after part3 (after part2 (after part1 W)) (Proc.devRef .tc main_v52) = spmmT (ego (W (Proc.devRef .tc main_arg0)) (W (Proc.devRef .tc main_arg1))) (W (Proc.devRef .tc main_arg5)) (W (Proc.devRef .tc main_arg6)) (W (Proc.devRef .tc main_arg7)) :=
  (keep3 _ main_v52 (by decide)).trans ((part2_path (after part1 W)).trans (by rw [part1_ego, arg5_at1, arg6_at1, arg7_at1]))

/-- The third pair: part 3 recomputes them once more. -/
theorem adj3_at3 : after part3 (after part2 (after part1 W)) (Proc.devRef .tc main_v65) = spmmT (ego (W (Proc.devRef .tc main_arg0)) (W (Proc.devRef .tc main_arg1))) (W (Proc.devRef .tc main_arg2)) (W (Proc.devRef .tc main_arg3)) (W (Proc.devRef .tc main_arg4)) :=
  (part3_adj (after part2 (after part1 W))).trans (by rw [ego_at2, arg2_at2, arg3_at2, arg4_at2])
theorem path3_at3 : after part3 (after part2 (after part1 W)) (Proc.devRef .tc main_v78) = spmmT (ego (W (Proc.devRef .tc main_arg0)) (W (Proc.devRef .tc main_arg1))) (W (Proc.devRef .tc main_arg5)) (W (Proc.devRef .tc main_arg6)) (W (Proc.devRef .tc main_arg7)) :=
  (part3_path (after part2 (after part1 W))).trans (by rw [ego_at2, arg5_at2, arg6_at2, arg7_at2])

/-! ## The results of the whole line -/

theorem line_stack : after part4 (after part3 (after part2 (after part1 W))) (Proc.devRef .tc main_v83) = layers4 (ego (W (Proc.devRef .tc main_arg0)) (W (Proc.devRef .tc main_arg1))) (spmmT (ego (W (Proc.devRef .tc main_arg0)) (W (Proc.devRef .tc main_arg1))) (W (Proc.devRef .tc main_arg2)) (W (Proc.devRef .tc main_arg3)) (W (Proc.devRef .tc main_arg4))) (spmmT (ego (W (Proc.devRef .tc main_arg0)) (W (Proc.devRef .tc main_arg1))) (W (Proc.devRef .tc main_arg2)) (W (Proc.devRef .tc main_arg3)) (W (Proc.devRef .tc main_arg4))) (spmmT (ego (W (Proc.devRef .tc main_arg0)) (W (Proc.devRef .tc main_arg1))) (W (Proc.devRef .tc main_arg2)) (W (Proc.devRef .tc main_arg3)) (W (Proc.devRef .tc main_arg4))) :=
  (part4_stack _).trans (by rw [ego_at3, adj1_at3, adj2_at3, adj3_at3])
theorem line_stack' : after part4 (after part3 (after part2 (after part1 W))) (Proc.devRef .tc main_v93) = layers4 (ego (W (Proc.devRef .tc main_arg0)) (W (Proc.devRef .tc main_arg1))) (spmmT (ego (W (Proc.devRef .tc main_arg0)) (W (Proc.devRef .tc main_arg1))) (W (Proc.devRef .tc main_arg5)) (W (Proc.devRef .tc main_arg6)) (W (Proc.devRef .tc main_arg7))) (spmmT (ego (W (Proc.devRef .tc main_arg0)) (W (Proc.devRef .tc main_arg1))) (W (Proc.devRef .tc main_arg5)) (W (Proc.devRef .tc main_arg6)) (W (Proc.devRef .tc main_arg7))) (spmmT (ego (W (Proc.devRef .tc main_arg0)) (W (Proc.devRef .tc main_arg1))) (W (Proc.devRef .tc main_arg5)) (W (Proc.devRef .tc main_arg6)) (W (Proc.devRef .tc main_arg7))) :=
  (part4_stack' _).trans (by rw [ego_at3, path1_at3, path2_at3, path3_at3])
theorem line_user : after part4 (after part3 (after part2 (after part1 W))) (Proc.devRef .tc main_v87)
    = extractStridedSlice S100000x64 ![0, 0] (layerMean (layers4 (ego (W (Proc.devRef .tc main_arg0)) (W (Proc.devRef .tc main_arg1))) (spmmT (ego (W (Proc.devRef .tc main_arg0)) (W (Proc.devRef .tc main_arg1))) (W (Proc.devRef .tc main_arg2)) (W (Proc.devRef .tc main_arg3)) (W (Proc.devRef .tc main_arg4))) (spmmT (ego (W (Proc.devRef .tc main_arg0)) (W (Proc.devRef .tc main_arg1))) (W (Proc.devRef .tc main_arg2)) (W (Proc.devRef .tc main_arg3)) (W (Proc.devRef .tc main_arg4))) (spmmT (ego (W (Proc.devRef .tc main_arg0)) (W (Proc.devRef .tc main_arg1))) (W (Proc.devRef .tc main_arg2)) (W (Proc.devRef .tc main_arg3)) (W (Proc.devRef .tc main_arg4))))) slices_S150000x64_S100000x64_0_0 :=
  (part4_user _).trans (by rw [ego_at3, adj1_at3, adj2_at3, adj3_at3])
theorem line_item : after part4 (after part3 (after part2 (after part1 W))) (Proc.devRef .tc main_v88)
    = extractStridedSlice S50000x64 ![100000, 0] (layerMean (layers4 (ego (W (Proc.devRef .tc main_arg0)) (W (Proc.devRef .tc main_arg1))) (spmmT (ego (W (Proc.devRef .tc main_arg0)) (W (Proc.devRef .tc main_arg1))) (W (Proc.devRef .tc main_arg2)) (W (Proc.devRef .tc main_arg3)) (W (Proc.devRef .tc main_arg4))) (spmmT (ego (W (Proc.devRef .tc main_arg0)) (W (Proc.devRef .tc main_arg1))) (W (Proc.devRef .tc main_arg2)) (W (Proc.devRef .tc main_arg3)) (W (Proc.devRef .tc main_arg4))) (spmmT (ego (W (Proc.devRef .tc main_arg0)) (W (Proc.devRef .tc main_arg1))) (W (Proc.devRef .tc main_arg2)) (W (Proc.devRef .tc main_arg3)) (W (Proc.devRef .tc main_arg4))))) slices_S150000x64_S50000x64_100000_0 :=
  (part4_item _).trans (by rw [ego_at3, adj1_at3, adj2_at3, adj3_at3])

/-- No operation writes argument 0. -/
theorem line_arg0 : after part4 (after part3 (after part2 (after part1 W))) (Proc.devRef .tc main_arg0) = W (Proc.devRef .tc main_arg0) :=
  (keep4 _ main_arg0 (by decide)).trans ((keep3 _ main_arg0 (by decide)).trans ((keep2 _ main_arg0 (by decide)).trans (keep1 W main_arg0 (by decide))))
/-- No operation writes argument 1. -/
theorem line_arg1 : after part4 (after part3 (after part2 (after part1 W))) (Proc.devRef .tc main_arg1) = W (Proc.devRef .tc main_arg1) :=
  (keep4 _ main_arg1 (by decide)).trans ((keep3 _ main_arg1 (by decide)).trans ((keep2 _ main_arg1 (by decide)).trans (keep1 W main_arg1 (by decide))))
/-- No operation writes argument 2. -/
theorem line_arg2 : after part4 (after part3 (after part2 (after part1 W))) (Proc.devRef .tc main_arg2) = W (Proc.devRef .tc main_arg2) :=
  (keep4 _ main_arg2 (by decide)).trans ((keep3 _ main_arg2 (by decide)).trans ((keep2 _ main_arg2 (by decide)).trans (keep1 W main_arg2 (by decide))))
/-- No operation writes argument 3. -/
theorem line_arg3 : after part4 (after part3 (after part2 (after part1 W))) (Proc.devRef .tc main_arg3) = W (Proc.devRef .tc main_arg3) :=
  (keep4 _ main_arg3 (by decide)).trans ((keep3 _ main_arg3 (by decide)).trans ((keep2 _ main_arg3 (by decide)).trans (keep1 W main_arg3 (by decide))))
/-- No operation writes argument 4. -/
theorem line_arg4 : after part4 (after part3 (after part2 (after part1 W))) (Proc.devRef .tc main_arg4) = W (Proc.devRef .tc main_arg4) :=
  (keep4 _ main_arg4 (by decide)).trans ((keep3 _ main_arg4 (by decide)).trans ((keep2 _ main_arg4 (by decide)).trans (keep1 W main_arg4 (by decide))))
/-- No operation writes argument 5. -/
theorem line_arg5 : after part4 (after part3 (after part2 (after part1 W))) (Proc.devRef .tc main_arg5) = W (Proc.devRef .tc main_arg5) :=
  (keep4 _ main_arg5 (by decide)).trans ((keep3 _ main_arg5 (by decide)).trans ((keep2 _ main_arg5 (by decide)).trans (keep1 W main_arg5 (by decide))))
/-- No operation writes argument 6. -/
theorem line_arg6 : after part4 (after part3 (after part2 (after part1 W))) (Proc.devRef .tc main_arg6) = W (Proc.devRef .tc main_arg6) :=
  (keep4 _ main_arg6 (by decide)).trans ((keep3 _ main_arg6 (by decide)).trans ((keep2 _ main_arg6 (by decide)).trans (keep1 W main_arg6 (by decide))))
/-- No operation writes argument 7. -/
theorem line_arg7 : after part4 (after part3 (after part2 (after part1 W))) (Proc.devRef .tc main_arg7) = W (Proc.devRef .tc main_arg7) :=
  (keep4 _ main_arg7 (by decide)).trans ((keep3 _ main_arg7 (by decide)).trans ((keep2 _ main_arg7 (by decide)).trans (keep1 W main_arg7 (by decide))))

end Chains

/-! ## The run -/

/-- On every device, from any memory with zero counters: every weakly fair execution of @main terminates with the
    four results at these functions of the launch contents — the user rows and the item rows of the layer mean of
    `layers4 ego a a a`, that stack, and `layers4 ego p p p` — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
        = extractStridedSlice S100000x64 ![0, 0] (layerMean (layers4 (ego (m ((c.tc : Thread nD τ).loc main_arg0)) (m ((c.tc : Thread nD τ).loc main_arg1))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))))) slices_S150000x64_S100000x64_0_0
      ∧ r.2.mem ((c.tc : Thread nD τ).loc main_v88)
        = extractStridedSlice S50000x64 ![100000, 0] (layerMean (layers4 (ego (m ((c.tc : Thread nD τ).loc main_arg0)) (m ((c.tc : Thread nD τ).loc main_arg1))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))))) slices_S150000x64_S50000x64_100000_0
      ∧ r.2.mem ((c.tc : Thread nD τ).loc main_v83) = layers4 (ego (m ((c.tc : Thread nD τ).loc main_arg0)) (m ((c.tc : Thread nD τ).loc main_arg1))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (spmmT (ego (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)))
      ∧ r.2.mem ((c.tc : Thread nD τ).loc main_v93) = layers4 (ego (m ((c.tc : Thread nD τ).loc main_arg0)) (m ((c.tc : Thread nD τ).loc main_arg1))) (spmmT (ego (m ((c.tc : Thread nD τ).loc main_arg0)) (m ((c.tc : Thread nD τ).loc main_arg1))) (m ((c.tc : Thread nD τ).loc main_arg5)) (m ((c.tc : Thread nD τ).loc main_arg6)) (m ((c.tc : Thread nD τ).loc main_arg7))) (spmmT (ego (m ((c.tc : Thread nD τ).loc main_arg0)) (m ((c.tc : Thread nD τ).loc main_arg1))) (m ((c.tc : Thread nD τ).loc main_arg5)) (m ((c.tc : Thread nD τ).loc main_arg6)) (m ((c.tc : Thread nD τ).loc main_arg7))) (spmmT (ego (m ((c.tc : Thread nD τ).loc main_arg0)) (m ((c.tc : Thread nD τ).loc main_arg1))) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      (h c main_v87).trans ((congrFun (after_ops _) _).trans (line_user _)),
      (h c main_v88).trans ((congrFun (after_ops _) _).trans (line_item _)),
      (h c main_v83).trans ((congrFun (after_ops _) _).trans (line_stack _)),
      (h c main_v93).trans ((congrFun (after_ops _) _).trans (line_stack' _)),
      (h c main_arg0).trans ((congrFun (after_ops _) _).trans (line_arg0 _)),
      (h c main_arg1).trans ((congrFun (after_ops _) _).trans (line_arg1 _)),
      (h c main_arg2).trans ((congrFun (after_ops _) _).trans (line_arg2 _)),
      (h c main_arg3).trans ((congrFun (after_ops _) _).trans (line_arg3 _)),
      (h c main_arg4).trans ((congrFun (after_ops _) _).trans (line_arg4 _)),
      (h c main_arg5).trans ((congrFun (after_ops _) _).trans (line_arg5 _)),
      (h c main_arg6).trans ((congrFun (after_ops _) _).trans (line_arg6 _)),
      (h c main_arg7).trans ((congrFun (after_ops _) _).trans (line_arg7 _))⟩)
    (run_seq scopedRefs_eq scopedSems_eq defs main (fun _ => ops) main_eq (fun _ => ops_sub) m ρ)

end Cert.ReferenceIdeal.RefRun

end
-- ==== Proof.RefIsPool.lean ====
/-
  The reference's results are the specification's functions of the embedding table and the sparse products.

  Its stack is the concatenation of four single layers — the table `e` and three times the product `a`, each given a
  unit middle axis — which read at `(n, k, d)` is `Pool.stack e a`. Its mean sums the four layers of the stack from `0`
  and divides by `4`; entry by entry that is `(0 + (e + a + a + a)) / 4`, which is `(e + 3 · a) · ¼` on the extended
  reals (`Pool.mean_law`).
-/
import proofs.«109639_j7095285973816_2_alg».proof.Proof.RefRun
import proofs.«109639_j7095285973816_2_alg».proof.Proof.PoolSpec
import proofs.«109639_j7095285973816_2_alg».proof.Proof.LibLayerStack
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx

section AnyF
variable {F : FTy → Type} [FloatOps F]

/-! ## The stack -/

/-- A table given a unit middle axis, read at `(n, 0, d)`: the table at `(n, d)`. -/
theorem layer_apply {α : Type} (y : S150000x64.Idx → α) (n : Fin 150000) (z : Fin 1) (d : Fin 64) :
    broadcastInDim S150000x1x64 ![0, 2] bcast_S150000x64_S150000x1x64_0_2 y (ix3 n z d) = y (ix2 n d) := by
  refine broadcastInDim_apply _ bcast_S150000x64_S150000x1x64_0_2 y (ix3 n z d) (ix2 n d) (fun a => ?_)
  match a with
  | ⟨0, _⟩ => show n.val = if (150000 : Nat) = 1 then 0 else n.val; rw [if_neg (by decide)]
  | ⟨1, _⟩ => show d.val = if (64 : Nat) = 1 then 0 else d.val; rw [if_neg (by decide)]

/-- Four single layers `e, a, a, a` stacked are `Pool.stack e a`. -/
theorem layers_eq_stack (e a : (⟨S150000x64, .f32⟩ : BufTy).Contents (Elt F)) :
    layers4 (F := F) e a a a = Cert.Pool.stack e a := by
  unfold layers4
  funext i
  obtain ⟨n, k, d, rfl⟩ : ∃ (n : Fin 150000) (k : Fin 4) (d : Fin 64), i = ix3 n k d :=
    ⟨i 0, i 1, i 2, eq_ix3 (n0 := 150000) (n1 := 4) (n2 := 64) i⟩
  refine (Cert.LayerStack.concat4_apply (N := 150000) (D := 64) _ _ _ _ _ n k d).trans ?_
  match k with
  | ⟨0, _⟩ =>
    refine (layer_apply e n 0 d).trans ?_
    show e (ix2 n d) = if (0 : Nat) = 0 then e (ix2 n d) else a (ix2 n d)
    rw [if_pos rfl]
  | ⟨1, _⟩ =>
    refine (layer_apply a n 0 d).trans ?_
    show a (ix2 n d) = if (1 : Nat) = 0 then e (ix2 n d) else a (ix2 n d)
    rw [if_neg (by decide)]
  | ⟨2, _⟩ =>
    refine (layer_apply a n 0 d).trans ?_
    show a (ix2 n d) = if (2 : Nat) = 0 then e (ix2 n d) else a (ix2 n d)
    rw [if_neg (by decide)]
  | ⟨3, _⟩ =>
    refine (layer_apply a n 0 d).trans ?_
    show a (ix2 n d) = if (3 : Nat) = 0 then e (ix2 n d) else a (ix2 n d)
    rw [if_neg (by decide)]

end AnyF

/-! ## The mean -/

/-- The host's sum over the layer axis, read at `(n, d)`: the initial value plus the four layers' entries there. -/
theorem layer_sum_apply (X : FVec Ideal S150000x4x64 .f32) (init : FVec Ideal S_ .f32)
    (n : Fin 150000) (d : Fin 64) :
    Host.reduceAdd (F := Ideal) X init reducesTo_S150000x4x64_S150000x64_d1 h_S_ (ix2 n d)
      = init (Shape.Idx.first h_S_) + ∑ k : Fin 4, X (ix3 n k d) := by
  simp only [Host.reduceAdd, Ideal.hostReduceAdd_def]
  rw [Ideal.hostReduceAdd_single reducesTo_S150000x4x64_S150000x64_d1 (by decide)]
  refine congrArg (_ + ·) (Finset.sum_congr rfl fun k _ => ?_)
  exact congrArg X (funext fun a => Fin.ext (by match a with | ⟨0, _⟩ => rfl | ⟨1, _⟩ => rfl | ⟨2, _⟩ => rfl))

/-- The layer mean of `Pool.stack e a` — its four layers summed from `0`, divided by `4` — is `Pool.mean e a`. -/
theorem layerMean_stack (e a : (⟨S150000x64, .f32⟩ : BufTy).Contents (Elt Ideal)) :
    layerMean (F := Ideal) (Cert.Pool.stack e a) = Cert.Pool.mean (F := Ideal) e a := by
  funext i
  obtain ⟨n, d, rfl⟩ : ∃ (n : Fin 150000) (d : Fin 64), i = ix2 n d := ⟨i 0, i 1, eq_ix2 (n0 := 150000) (n1 := 64) i⟩
  unfold layerMean
  show FloatOps.hostDivf
      (Host.reduceAdd (F := Ideal) (Cert.Pool.stack e a) (constant (F := Ideal) S_ .f32 0x00000000#32)
        reducesTo_S150000x4x64_S150000x64_d1 h_S_ (ix2 n d))
      (FloatOps.ofBits .f32 0x40800000#32)
    = Cert.Pool.mean (F := Ideal) e a (ix2 n d)
  rw [layer_sum_apply, Fin.sum_univ_four]
  exact (Cert.Pool.mean_law (e (ix2 n d)) (a (ix2 n d))).symm

end Cert.ReferenceIdeal.RefValue

end
-- ==== Proof.lean ====
/-
  Layer pooling of graph embeddings: the kernel against its reference, on the extended reals.

  Both programs build the table `e` of all node embeddings (user rows, then item rows) and, for each of the two
  adjacencies, the sparse product `a` of the adjacency with `e`; every propagation layer starts from the same `e`, so
  the four layers of a stack are `e, a, a, a`. The results are the mean over the layers, cut into user rows and item
  rows, and the two stacks.

  The reference recomputes `a` once per layer, stacks the four layers, sums them from `0` and divides by `4`. The
  kernel computes `a` once, and its pooling stage writes `(e + 3 · a) · ¼` and lays `e` in front of three copies of `a`,
  fifty blocks of 3000 rows each. The two stacks agree entry by entry; the two means agree because
  `3 · a = a + a + a` for every extended real, addition is associative and dividing by `4` is multiplying by `¼`
  (`Pool.mean_law`), so no finiteness of the inputs is needed. The sparse product is the same operations on the same
  arguments in both programs and is never opened.

  The word-level kernel and its reading on the extended reals differ by no rewrite, so the second is the first's
  idealization with nothing to show.
-/
import proofs.«109639_j7095285973816_2_alg».proof.Defs
import proofs.«109639_j7095285973816_2_alg».proof.Proof.Gen.Kernel
import proofs.«109639_j7095285973816_2_alg».proof.Proof.Gen.Kernel.Skeleton
import proofs.«109639_j7095285973816_2_alg».proof.Proof.Gen.Kernel.Launch
import proofs.«109639_j7095285973816_2_alg».proof.Proof.Gen.Kernel.Points
import proofs.«109639_j7095285973816_2_alg».proof.Proof.Gen.Kernel.Frame
import proofs.«109639_j7095285973816_2_alg».proof.Proof.Gen.KernelIdeal
import proofs.«109639_j7095285973816_2_alg».proof.Proof.Gen.KernelIdeal.Skeleton
import proofs.«109639_j7095285973816_2_alg».proof.Proof.Gen.KernelIdeal.Launch
import proofs.«109639_j7095285973816_2_alg».proof.Proof.Gen.KernelIdeal.Points
import proofs.«109639_j7095285973816_2_alg».proof.Proof.Gen.KernelIdeal.Frame
import proofs.«109639_j7095285973816_2_alg».proof.Proof.Gen.ReferenceIdeal
import proofs.«109639_j7095285973816_2_alg».proof.Proof.Gen.Pre_finite_inputs
import proofs.«109639_j7095285973816_2_alg».proof.Proof.PoolRun
import proofs.«109639_j7095285973816_2_alg».proof.Proof.RefRun
import proofs.«109639_j7095285973816_2_alg».proof.Proof.RefIsPool
import Idealize.ShloMosaic.Adequacy
import Idealize.ShloMosaic.Init

noncomputable section

namespace Cert.Proof

open Idealize.ShloMosaic Idealize.SL.Sem

/-! ## The two programs build the same table and the same sparse products -/

/-- The kernel's embedding table is the reference's. -/
theorem ego_same (x0 : (⟨Cert.KernelIdeal.S100000x64, .f32⟩ : BufTy).Contents (Elt Ideal))
    (x1 : (⟨Cert.KernelIdeal.S50000x64, .f32⟩ : BufTy).Contents (Elt Ideal)) :
    Cert.KernelIdeal.PoolValue.ego (F := Ideal) x0 x1 = Cert.ReferenceIdeal.RefRun.ego (F := Ideal) x0 x1 := rfl

/-- The kernel's sparse product is the reference's, of the reference's table: the same operations on the same arguments. -/
theorem adj_same (x0 : (⟨Cert.KernelIdeal.S100000x64, .f32⟩ : BufTy).Contents (Elt Ideal))
    (x1 : (⟨Cert.KernelIdeal.S50000x64, .f32⟩ : BufTy).Contents (Elt Ideal))
    (rows cols : (⟨Cert.KernelIdeal.S1000000, .i32⟩ : BufTy).Contents (Elt Ideal))
    (vals : (⟨Cert.KernelIdeal.S1000000, .f32⟩ : BufTy).Contents (Elt Ideal)) :
    Cert.KernelIdeal.PoolValue.spmm (F := Ideal) x0 x1 rows cols vals
      = Cert.ReferenceIdeal.RefRun.spmmT (F := Ideal) (Cert.ReferenceIdeal.RefRun.ego (F := Ideal) x0 x1) rows cols vals := rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference's run with the results dropped: it terminates and leaves its arguments as they were. -/
theorem frame_ri : Cert.frame_ReferenceIdeal := fun m ρ _ =>
  (θ_run Cert.ReferenceIdeal.defs _ _).mono (fun _ h c => (h c).2.2.2.2) (Cert.ReferenceIdeal.RefRun.run (F := Ideal) m ρ)

/-- The idealization rewrote nothing. -/
theorem preserves : Cert.preserves_Kernel_KernelIdeal := trivial

/-- From memories agreeing on the arguments both programs end with the user rows and item rows of
    `Pool.mean e a`, with `Pool.stack e a` and with `Pool.stack e p`, for the one table `e` and the one pair of sparse
    products `a`, `p` of the arguments. -/
theorem algebraic : Cert.algebraic_KernelIdeal_ReferenceIdeal := by
  intro m ρ m' ρ' _ hagree
  refine ⟨_, _, _, _, Cert.KernelIdeal.PoolValue.run (F := Ideal) m ρ, ?_⟩
  refine (θ_run Cert.ReferenceIdeal.defs _ _).mono (fun _ h c => ?_) (Cert.ReferenceIdeal.RefRun.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [a0, a1, a2, a3, a4, Cert.ReferenceIdeal.RefValue.layers_eq_stack, Cert.ReferenceIdeal.RefValue.layerMean_stack,
      ego_same, adj_same]
    all_goals rfl
  · rw [a0, a1, a2, a3, a4, Cert.ReferenceIdeal.RefValue.layers_eq_stack, Cert.ReferenceIdeal.RefValue.layerMean_stack,
      ego_same, adj_same]
    all_goals rfl
  · rw [a0, a1, a2, a3, a4, Cert.ReferenceIdeal.RefValue.layers_eq_stack, ego_same, adj_same]
    all_goals rfl
  · rw [a0, a1, a5, a6, a7, Cert.ReferenceIdeal.RefValue.layers_eq_stack, ego_same, adj_same]
    all_goals rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
